-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S128x2 .f32) (main_arg13 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x2 .f32 := Host.absf main_arg12
  let main_cst_20 : FVec F S_ .f32 := constant S_ .f32 0x7F800000#32
  let main_v55 : FVec F S128x2 .f32 := broadcastInDim S128x2 ![] bcast_S_S128x2 main_cst_20
  let main_v56 : IVec S128x2 1 := cmpf .olt main_v54 main_v55
  let main_c_21 : IVec S_ 1 := constantI S_ 1 1#1
  let main_v57 : IVec S_ 1 := (fun x v => Host.reduce IntOp.andi x v reducesTo_S128x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S128 .f32) (main_arg11 : FVec F S128 .f32) (main_arg12 : FVec F S128x2 .f32) (main_arg13 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128x2 .f32) (main_arg13 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x1600000 32) (main_arg2 : FVec F S128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128x2 .f32) (main_arg13 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x1600000 : Shape := ⟨2, ![2, 1600000]⟩
abbrev S128 : Shape := ⟨1, ![128]⟩
abbrev S128x128 : Shape := ⟨2, ![128, 128]⟩
abbrev S128x2 : Shape := ⟨2, ![128, 2]⟩
abbrev S2 : Shape := ⟨1, ![2]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1x128 : Shape := ⟨2, ![1, 128]⟩
abbrev S5000x128 : Shape := ⟨2, ![5000, 128]⟩
abbrev S1650000x128 : Shape := ⟨2, ![1650000, 128]⟩
abbrev S50000x2 : Shape := ⟨2, ![50000, 2]⟩
abbrev S5000x2 : Shape := ⟨2, ![5000, 2]⟩
abbrev S1650000x2 : Shape := ⟨2, ![1650000, 2]⟩
abbrev S1x2 : Shape := ⟨2, ![1, 2]⟩

abbrev nBuf : Space → Nat
  | .hbm => 105
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x2, .f32⟩
  | .hbm, ⟨13, _⟩ => ⟨S2, .f32⟩
  | .hbm, ⟨14, _⟩ => ⟨S50000, .i32⟩
  | .hbm, ⟨15, _⟩ => ⟨S1x1600000, .i32⟩
  | .hbm, ⟨16, _⟩ => ⟨S1600000, .i32⟩
  | .hbm, ⟨17, _⟩ => ⟨S1650000, .i32⟩
  | .hbm, ⟨18, _⟩ => ⟨S1x1600000, .i32⟩
  | .hbm, ⟨19, _⟩ => ⟨S1600000, .i32⟩
  | .hbm, ⟨20, _⟩ => ⟨S1650000, .i32⟩
  | .hbm, ⟨21, _⟩ => ⟨S_, .f32⟩
  | .hbm, ⟨22, _⟩ => ⟨S1650000, .f32⟩
  | .hbm, ⟨23, _⟩ => ⟨S_, .f32⟩
  | .hbm, ⟨24, _⟩ => ⟨S50000, .f32⟩
  | .hbm, ⟨25, _⟩ => ⟨S1650000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000, .f32⟩
  | .hbm, ⟨56, _⟩ => ⟨S1650000, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S1650000, .i32⟩
  | .hbm, ⟨64, _⟩ => ⟨S1650000, .i1⟩
  | .hbm, ⟨65, _⟩ => ⟨S_, .i32⟩
  | .hbm, ⟨66, _⟩ => ⟨S1650000, .i32⟩
  | .hbm, ⟨67, _⟩ => ⟨S1650000, .i32⟩
  | .hbm, ⟨68, _⟩ => ⟨S1650000, .i32⟩
  | .hbm, ⟨69, _⟩ => ⟨S1650000x1, .i32⟩
  | .hbm, ⟨70, _⟩ => ⟨S1650000x128, .f32⟩
  | .hbm, ⟨71, _⟩ => ⟨S1650000x1, .f32⟩
  | .hbm, ⟨72, _⟩ => ⟨S1650000x128, .f32⟩
  | .hbm, ⟨73, _⟩ => ⟨S1650000x128, .f32⟩
  | .hbm, ⟨74, _⟩ => ⟨S_, .f32⟩
  | .hbm, ⟨75, _⟩ => ⟨S50000x128, .f32⟩
  | .hbm, ⟨76, _⟩ => ⟨S1650000x1, .i32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S50000x2, .f32⟩
  | .hbm, ⟨86, _⟩ => ⟨S_, .i32⟩
  | .hbm, ⟨87, _⟩ => ⟨S1650000, .i32⟩
  | .hbm, ⟨88, _⟩ => ⟨S1650000, .i1⟩
  | .hbm, ⟨89, _⟩ => ⟨S_, .i32⟩
  | .hbm, ⟨90, _⟩ => ⟨S1650000, .i32⟩
  | .hbm, ⟨91, _⟩ => ⟨S1650000, .i32⟩
  | .hbm, ⟨92, _⟩ => ⟨S1650000, .i32⟩
  | .hbm, ⟨93, _⟩ => ⟨S1650000x1, .i32⟩
  | .hbm, ⟨94, _⟩ => ⟨S1650000x2, .f32⟩
  | .hbm, ⟨95, _⟩ => ⟨S1650000x1, .f32⟩
  | .hbm, ⟨96, _⟩ => ⟨S1650000x2, .f32⟩
  | .hbm, ⟨97, _⟩ => ⟨S1650000x2, .f32⟩
  | .hbm, ⟨98, _⟩ => ⟨S_, .f32⟩
  | .hbm, ⟨99, _⟩ => ⟨S50000x2, .f32⟩
  | .hbm, ⟨100, _⟩ => ⟨S1650000x1, .i32⟩
  | .hbm, ⟨101, _⟩ => ⟨S50000x2, .f32⟩
  | .hbm, ⟨102, _⟩ => ⟨S1x2, .f32⟩
  | .hbm, ⟨103, _⟩ => ⟨S50000x2, .f32⟩
  | .hbm, ⟨104, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S128x2, .f32⟩
  | .local _ .vmem, ⟨16, _⟩ => ⟨S5000x2, .f32⟩
  | .local _ .vmem, ⟨17, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_10 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  bcast_S1650000x1_S1650000x2_0_1 : S1650000x1.BroadcastsInDim S1650000x2 (![0, 1] : Fin 2 → Fin S1650000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x2_S5000x2_1_0_0_1_n_n_wf : DotDims.WF S5000x128 S128x2 S5000x2 [1] [0] [0] [1] [] []
  gather_S50000x2_S1650000x1_S1650000x2_1_0_n_n_0_1_12_wf : GatherDims.WF S50000x2 S1650000x1 S1650000x2 [1] [0] [] [0] [] 1 ![1, 2]
  scatter_S50000x2_S1650000x1_S1650000x2_1_0_0_1_wf : ScatterDims.WF S50000x2 S1650000x1 S1650000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x2.size a ≤ S50000x2.size a
  hwx1_6 : ∀ i : grid1.Coords, EltTy.bits .f32 = 32 ∨ (Rect.block (s := S50000x2) S5000x2.size (cc1_transform_6 i) (hinb1_6 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000x2_S1650000x1_S1650000x2_1_0_n_n_0_1_12 : GatherDims S50000x2 S1650000x1 S1650000x2 where
  offsetDims := [1]
  collapsedSliceDims := [0]
  operandBatchingDims := []
  startIndicesBatchingDims := []
  startIndexMap := [0]
  indexVectorDim := 1
  sliceSizes := ![1, 2]
  wf := gather_S50000x2_S1650000x1_S1650000x2_1_0_n_n_0_1_12_wf
def scatter_S50000x2_S1650000x1_S1650000x2_1_0_0_1 : ScatterDims S50000x2 S1650000x1 S1650000x2 where
  updateWindowDims := [1]
  insertedWindowDims := [0]
  scatterDimsToOperandDims := [0]
  indexVectorDim := 1
  wf := scatter_S50000x2_S1650000x1_S1650000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S5000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x128 : Shape := ⟨2, ![1, 128]⟩
abbrev S_ : Shape := ⟨0, ![]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S1650000x128 : Shape := ⟨2, ![1650000, 128]⟩
abbrev S50000x2 : Shape := ⟨2, ![50000, 2]⟩
abbrev S1650000x2 : Shape := ⟨2, ![1650000, 2]⟩
abbrev S1x2 : Shape := ⟨2, ![1, 2]⟩

abbrev nBuf : Space → Nat
  | .hbm => 175
  | .vmem => 0
  | .smem => 0
  | _ => 0

abbrev hbmTy0_0 (i : Nat) : BufTy := match i % 128 with
  | 0 => ⟨S50000x128, .f32⟩
  | 1 => ⟨S2x1600000, .i32⟩
  | 2 => ⟨S128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S128x2, .f32⟩
  | 13 => ⟨S2, .f32⟩
  | 14 => ⟨S1x128, .f32⟩
  | 15 => ⟨S50000x128, .f32⟩
  | 16 => ⟨S50000x128, .f32⟩
  | 17 => ⟨S_, .f32⟩
  | 18 => ⟨S128, .f32⟩
  | 19 => ⟨S128, .f32⟩
  | 20 => ⟨S128, .f32⟩
  | 21 => ⟨S1x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S50000x128, .f32⟩
  | 31 => ⟨S50000, .i32⟩
  | 32 => ⟨S1x1600000, .i32⟩
  | 33 => ⟨S1600000, .i32⟩
  | 34 => ⟨S1650000, .i32⟩
  | 35 => ⟨S1x1600000, .i32⟩
  | 36 => ⟨S1600000, .i32⟩
  | 37 => ⟨S1650000, .i32⟩
  | 38 => ⟨S_, .f32⟩
  | 39 => ⟨S1650000, .f32⟩
  | 40 => ⟨S_, .f32⟩
  | 41 => ⟨S50000, .f32⟩
  | 42 => ⟨S1650000x1, .i32⟩
  | 43 => ⟨S50000, .f32⟩
  | 44 => ⟨S_, .f32⟩
  | 45 => ⟨S50000, .f32⟩
  | 46 => ⟨S50000, .i1⟩
  | 47 => ⟨S_, .f32⟩
  | 48 => ⟨S50000, .f32⟩
  | 49 => ⟨S50000, .f32⟩
  | 50 => ⟨S50000, .f32⟩
  | 51 => ⟨S_, .f32⟩
  | 52 => ⟨S_, .f32⟩
  | 53 => ⟨S50000, .f32⟩
  | 54 => ⟨S50000, .f32⟩
  | 55 => ⟨S_, .i32⟩
  | 56 => ⟨S1650000, .i32⟩
  | 57 => ⟨S1650000, .i1⟩
  | 58 => ⟨S_, .i32⟩
  | 59 => ⟨S1650000, .i32⟩
  | 60 => ⟨S1650000, .i32⟩
  | 61 => ⟨S1650000, .i32⟩
  | 62 => ⟨S1650000x1, .i32⟩
  | 63 => ⟨S1650000, .f32⟩
  | 64 => ⟨S_, .i32⟩
  | 65 => ⟨S1650000, .i32⟩
  | 66 => ⟨S1650000, .i1⟩
  | 67 => ⟨S_, .i32⟩
  | 68 => ⟨S1650000, .i32⟩
  | 69 => ⟨S1650000, .i32⟩
  | 70 => ⟨S1650000, .i32⟩
  | 71 => ⟨S1650000x1, .i32⟩
  | 72 => ⟨S1650000, .f32⟩
  | 73 => ⟨S1650000, .f32⟩
  | 74 => ⟨S_, .i32⟩
  | 75 => ⟨S1650000, .i32⟩
  | 76 => ⟨S1650000, .i1⟩
  | 77 => ⟨S_, .i32⟩
  | 78 => ⟨S1650000, .i32⟩
  | 79 => ⟨S1650000, .i32⟩
  | 80 => ⟨S1650000, .i32⟩
  | 81 => ⟨S1650000x1, .i32⟩
  | 82 => ⟨S1650000x128, .f32⟩
  | 83 => ⟨S1650000x1, .f32⟩
  | 84 => ⟨S1650000x128, .f32⟩
  | 85 => ⟨S1650000x128, .f32⟩
  | 86 => ⟨S_, .f32⟩
  | 87 => ⟨S50000x128, .f32⟩
  | 88 => ⟨S1650000x1, .i32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S128, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x2, .f32⟩
  | 113 => ⟨S50000, .i32⟩
  | 114 => ⟨S1x1600000, .i32⟩
  | 115 => ⟨S1600000, .i32⟩
  | 116 => ⟨S1650000, .i32⟩
  | 117 => ⟨S1x1600000, .i32⟩
  | 118 => ⟨S1600000, .i32⟩
  | 119 => ⟨S1650000, .i32⟩
  | 120 => ⟨S_, .f32⟩
  | 121 => ⟨S1650000, .f32⟩
  | 122 => ⟨S_, .f32⟩
  | 123 => ⟨S50000, .f32⟩
  | 124 => ⟨S1650000x1, .i32⟩
  | 125 => ⟨S50000, .f32⟩
  | 126 => ⟨S_, .f32⟩
  | 127 => ⟨S50000, .f32⟩
  | _ => ⟨S50000x128, .f32⟩

abbrev hbmTy0_1 (i : Nat) : BufTy := match i % 128 with
  | 0 => ⟨S50000, .i1⟩
  | 1 => ⟨S_, .f32⟩
  | 2 => ⟨S50000, .f32⟩
  | 3 => ⟨S50000, .f32⟩
  | 4 => ⟨S50000, .f32⟩
  | 5 => ⟨S_, .f32⟩
  | 6 => ⟨S_, .f32⟩
  | 7 => ⟨S50000, .f32⟩
  | 8 => ⟨S50000, .f32⟩
  | 9 => ⟨S_, .i32⟩
  | 10 => ⟨S1650000, .i32⟩
  | 11 => ⟨S1650000, .i1⟩
  | 12 => ⟨S_, .i32⟩
  | 13 => ⟨S1650000, .i32⟩
  | 14 => ⟨S1650000, .i32⟩
  | 15 => ⟨S1650000, .i32⟩
  | 16 => ⟨S1650000x1, .i32⟩
  | 17 => ⟨S1650000, .f32⟩
  | 18 => ⟨S_, .i32⟩
  | 19 => ⟨S1650000, .i32⟩
  | 20 => ⟨S1650000, .i1⟩
  | 21 => ⟨S_, .i32⟩
  | 22 => ⟨S1650000, .i32⟩
  | 23 => ⟨S1650000, .i32⟩
  | 24 => ⟨S1650000, .i32⟩
  | 25 => ⟨S1650000x1, .i32⟩
  | 26 => ⟨S1650000, .f32⟩
  | 27 => ⟨S1650000, .f32⟩
  | 28 => ⟨S_, .i32⟩
  | 29 => ⟨S1650000, .i32⟩
  | 30 => ⟨S1650000, .i1⟩
  | 31 => ⟨S_, .i32⟩
  | 32 => ⟨S1650000, .i32⟩
  | 33 => ⟨S1650000, .i32⟩
  | 34 => ⟨S1650000, .i32⟩
  | 35 => ⟨S1650000x1, .i32⟩
  | 36 => ⟨S1650000x2, .f32⟩
  | 37 => ⟨S1650000x1, .f32⟩
  | 38 => ⟨S1650000x2, .f32⟩
  | 39 => ⟨S1650000x2, .f32⟩
  | 40 => ⟨S_, .f32⟩
  | 41 => ⟨S50000x2, .f32⟩
  | 42 => ⟨S1650000x1, .i32⟩
  | 43 => ⟨S50000x2, .f32⟩
  | 44 => ⟨S1x2, .f32⟩
  | 45 => ⟨S50000x2, .f32⟩
  | 46 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_v32 : Ref sig .tc := ⟨.hbm, 54, rfl⟩
abbrev main_c : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_6 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_call1_cst : Ref sig .tc := ⟨.hbm, 109, rfl⟩
abbrev main_call1_v0 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_12 : Ref sig .tc := ⟨.hbm, 120, rfl⟩
abbrev main_v88 : Ref sig .tc := ⟨.hbm, 121, rfl⟩
abbrev main_cst_13 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_14 : Ref sig .tc := ⟨.hbm, 126, rfl⟩
abbrev main_v92 : Ref sig .tc := ⟨.hbm, 127, rfl⟩
abbrev main_v93 : Ref sig .tc := ⟨.hbm, 128, rfl⟩
abbrev main_cst_15 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_16 : Ref sig .tc := ⟨.hbm, 133, rfl⟩
abbrev main_call2_v0 : Ref sig .tc := ⟨.hbm, 134, rfl⟩
abbrev main_call2_v1 : Ref sig .tc := ⟨.hbm, 135, rfl⟩
abbrev main_v97 : Ref sig .tc := ⟨.hbm, 136, rfl⟩
abbrev main_c_17 : Ref sig .tc := ⟨.hbm, 137, rfl⟩
abbrev main_v98 : Ref sig .tc := ⟨.hbm, 138, rfl⟩
abbrev main_v99 : Ref sig .tc := ⟨.hbm, 139, rfl⟩
abbrev main_c_18 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_c_19 : Ref sig .tc := ⟨.hbm, 146, rfl⟩
abbrev main_v105 : Ref sig .tc := ⟨.hbm, 147, rfl⟩
abbrev main_v106 : Ref sig .tc := ⟨.hbm, 148, rfl⟩
abbrev main_c_20 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_21 : Ref sig .tc := ⟨.hbm, 156, rfl⟩
abbrev main_v113 : Ref sig .tc := ⟨.hbm, 157, rfl⟩
abbrev main_v114 : Ref sig .tc := ⟨.hbm, 158, rfl⟩
abbrev main_c_22 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_23 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S1650000x1_S1650000x2_0_1 : S1650000x1.BroadcastsInDim S1650000x2 (![0, 1] : Fin 2 → Fin S1650000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x2_S50000x2_1_0_0_1_n_n_wf : DotDims.WF S50000x128 S128x2 S50000x2 [1] [0] [0] [1] [] []
  gather_S50000x2_S1650000x1_S1650000x2_1_0_n_n_0_1_12_wf : GatherDims.WF S50000x2 S1650000x1 S1650000x2 [1] [0] [] [0] [] 1 ![1, 2]
  scatter_S50000x2_S1650000x1_S1650000x2_1_0_0_1_wf : ScatterDims.WF S50000x2 S1650000x1 S1650000x2 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S1650000x1_S1650000x2_1_0_n_n_0_1_12 : GatherDims S50000x2 S1650000x1 S1650000x2 where
  offsetDims := [1]
  collapsedSliceDims := [0]
  operandBatchingDims := []
  startIndicesBatchingDims := []
  startIndexMap := [0]
  indexVectorDim := 1
  sliceSizes := ![1, 2]
  wf := gather_S50000x2_S1650000x1_S1650000x2_1_0_n_n_0_1_12_wf
def scatter_S50000x2_S1650000x1_S1650000x2_1_0_0_1 : ScatterDims S50000x2 S1650000x1 S1650000x2 where
  updateWindowDims := [1]
  insertedWindowDims := [0]
  scatterDimsToOperandDims := [0]
  indexVectorDim := 1
  wf := scatter_S50000x2_S1650000x1_S1650000x2_1_0_0_1_wf

class Facts : Prop extends Facts₀ where

variable [Facts]
-- ==== Proof.Gcn.lean ====
/-
  A two-layer graph convolution, stage by stage, as whole-array functions.

  The graph has 50000 nodes and an edge list `x1` of 1600000 (source, target) pairs, to which one self-loop
  per node is appended. With `deg n` the number of edges arriving at node `n` (a self-loop included) and
  `s n = if deg n > 0 then (max (deg n) 1)^(-1/2) else 0`, edge `e` carries the weight `s (src e) · s (dst e)`,
  and a layer sends a node-feature matrix `h` to `n ↦ (∑ over edges e with dst e = n of h[src e, ·] · weight e) + bias`.
  Between and before the two layers the features are normalised column by column,
  `(a - mean) · (var + ε)^(-1/2) · gamma + beta`, and multiplied by a weight matrix; before the second
  product they are also rectified. Every stage is written once, here, in the array operations both programs
  print, so that each program's result can be stated as `forward` of its arguments.
-/
import proofs.«124366_j57750130262575_1_alg».proof.Proof.Gen.ReferenceIdeal

noncomputable section

namespace Cert.Gcn

open Idealize.ShloMosaic Cert.ReferenceIdeal Cert.ReferenceIdeal.Gen

variable {F : FTy → Type} [FloatOps F]

/-- Row 0 of the edge list (the sources) followed by the self-loops' node numbers 0 … 49999. -/
def sources (x1 : (⟨S2x1600000, .i32⟩ : BufTy).Contents (Elt F)) : (⟨S1650000, .i32⟩ : BufTy).Contents (Elt F) :=
  concatenate S1650000 0 [⟨S1600000, shapeCast S1600000 (extractStridedSlice S1x1600000 ![0, 0] x1 slices_S2x1600000_S1x1600000_0_0) shapeCasts_S1x1600000_S1600000⟩, ⟨S50000, iotaInDim S50000 32 0⟩] concatenates_S1600000_S50000_S1650000_d0

/-- Row 1 of the edge list (the targets) followed by the self-loops' node numbers. -/
def targets (x1 : (⟨S2x1600000, .i32⟩ : BufTy).Contents (Elt F)) : (⟨S1650000, .i32⟩ : BufTy).Contents (Elt F) :=
  concatenate S1650000 0 [⟨S1600000, shapeCast S1600000 (extractStridedSlice S1x1600000 ![1, 0] x1 slices_S2x1600000_S1x1600000_1_0) shapeCasts_S1x1600000_S1600000⟩, ⟨S50000, iotaInDim S50000 32 0⟩] concatenates_S1600000_S50000_S1650000_d0

/-- A node number read the way array indexing reads it: a negative one counts from the end. -/
def fromEnd (v : (⟨S1650000, .i32⟩ : BufTy).Contents (Elt F)) : (⟨S1650000, .i32⟩ : BufTy).Contents (Elt F) :=
  select (cmpi .slt v (broadcastInDim S1650000 ![] bcast_S_S1650000 (constantI S_ 32 0#32)) : (⟨S1650000, .i1⟩ : BufTy).Contents (Elt F))
    (addi v (broadcastInDim S1650000 ![] bcast_S_S1650000 (constantI S_ 32 50000#32))) v

/-- The number of edges arriving at each node: ones scattered onto the targets and added up. -/
def degree (x1 : (⟨S2x1600000, .i32⟩ : BufTy).Contents (Elt F)) : (⟨S50000, .f32⟩ : BufTy).Contents (Elt F) :=
  Host.scatterAdd scatter_S50000_S1650000x1_S1650000_n_0_0_1
    (broadcastInDim S50000 ![] bcast_S_S50000 (constant (F := F) S_ .f32 0x00000000#32))
    (broadcastInDim S1650000x1 ![0] bcast_S1650000_S1650000x1_0 (targets (F := F) x1))
    (broadcastInDim S1650000 ![] bcast_S_S1650000 (constant (F := F) S_ .f32 0x3F800000#32))

/-- `(max deg 1)^(-1/2)` where the degree is positive, zero elsewhere. -/
def invSqrtDegree (x1 : (⟨S2x1600000, .i32⟩ : BufTy).Contents (Elt F)) : (⟨S50000, .f32⟩ : BufTy).Contents (Elt F) :=
  select (cmpf .ogt (degree (F := F) x1) (broadcastInDim S50000 ![] bcast_S_S50000 (constant (F := F) S_ .f32 0x00000000#32)) : (⟨S50000, .i1⟩ : BufTy).Contents (Elt F))
    (Host.rsqrt (maximumf (degree (F := F) x1) (broadcastInDim S50000 ![] bcast_S_S50000 (constant (F := F) S_ .f32 0x3F800000#32))))
    (broadcastInDim S50000 ![] bcast_S_S50000 (id (constant (F := F) S_ .f32 0x00000000#32)))

/-- Edge `e`'s weight: the normalisation at its source times the one at its target. -/
def edgeWeight (x1 : (⟨S2x1600000, .i32⟩ : BufTy).Contents (Elt F)) : (⟨S1650000, .f32⟩ : BufTy).Contents (Elt F) :=
  mulf (Host.gather gather_S50000_S1650000x1_S1650000_n_0_n_n_0_1_1 (invSqrtDegree (F := F) x1) (broadcastInDim S1650000x1 ![0] bcast_S1650000_S1650000x1_0 (fromEnd (F := F) (sources (F := F) x1))))
    (Host.gather gather_S50000_S1650000x1_S1650000_n_0_n_n_0_1_1 (invSqrtDegree (F := F) x1) (broadcastInDim S1650000x1 ![0] bcast_S1650000_S1650000x1_0 (fromEnd (F := F) (targets (F := F) x1))))

/-- One aggregation over 128 feature columns: each edge carries its source's row, scaled by the edge's weight, to
    its target, where the rows add up; then the bias row is added to every node. -/
def aggregate128 (h : (⟨S50000x128, .f32⟩ : BufTy).Contents (Elt F)) (x1 : (⟨S2x1600000, .i32⟩ : BufTy).Contents (Elt F)) (bias : (⟨S128, .f32⟩ : BufTy).Contents (Elt F)) : (⟨S50000x128, .f32⟩ : BufTy).Contents (Elt F) :=
  addf (Host.scatterAdd scatter_S50000x128_S1650000x1_S1650000x128_1_0_0_1
      (broadcastInDim S50000x128 ![] bcast_S_S50000x128 (constant (F := F) S_ .f32 0x00000000#32))
      (broadcastInDim S1650000x1 ![0] bcast_S1650000_S1650000x1_0 (targets (F := F) x1))
      (mulf (Host.gather gather_S50000x128_S1650000x1_S1650000x128_1_0_n_n_0_1_1128 h (broadcastInDim S1650000x1 ![0] bcast_S1650000_S1650000x1_0 (fromEnd (F := F) (sources (F := F) x1))))
        (broadcastInDim S1650000x128 ![0, 1] bcast_S1650000x1_S1650000x128_0_1 (broadcastInDim S1650000x1 ![0] bcast_S1650000_S1650000x1_0 (edgeWeight (F := F) x1)))))
    (broadcastInDim S50000x128 ![0, 1] bcast_S1x128_S50000x128_0_1 (broadcastInDim S1x128 ![1] bcast_S128_S1x128_1 bias))

/-- The same aggregation over the two class columns. -/
def aggregate2 (h : (⟨S50000x2, .f32⟩ : BufTy).Contents (Elt F)) (x1 : (⟨S2x1600000, .i32⟩ : BufTy).Contents (Elt F)) (bias : (⟨S2, .f32⟩ : BufTy).Contents (Elt F)) : (⟨S50000x2, .f32⟩ : BufTy).Contents (Elt F) :=
  addf (Host.scatterAdd scatter_S50000x2_S1650000x1_S1650000x2_1_0_0_1
      (broadcastInDim S50000x2 ![] bcast_S_S50000x2 (constant (F := F) S_ .f32 0x00000000#32))
      (broadcastInDim S1650000x1 ![0] bcast_S1650000_S1650000x1_0 (targets (F := F) x1))
      (mulf (Host.gather gather_S50000x2_S1650000x1_S1650000x2_1_0_n_n_0_1_12 h (broadcastInDim S1650000x1 ![0] bcast_S1650000_S1650000x1_0 (fromEnd (F := F) (sources (F := F) x1))))
        (broadcastInDim S1650000x2 ![0, 1] bcast_S1650000x1_S1650000x2_0_1 (broadcastInDim S1650000x1 ![0] bcast_S1650000_S1650000x1_0 (edgeWeight (F := F) x1)))))
    (broadcastInDim S50000x2 ![0, 1] bcast_S1x2_S50000x2_0_1 (broadcastInDim S1x2 ![1] bcast_S2_S1x2_1 bias))

/-- A `[128]` vector repeated down the 50000 rows. -/
def downRows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- Column-wise normalisation with fixed statistics: `(a - mean) · (var + ε)^(-1/2) · gamma + beta`. -/
def normalise (a : (⟨S50000x128, .f32⟩ : BufTy).Contents (Elt F)) (gamma beta mean var : (⟨S128, .f32⟩ : BufTy).Contents (Elt F)) : (⟨S50000x128, .f32⟩ : BufTy).Contents (Elt F) :=
  addf (mulf (mulf (subf a (downRows (F := F) mean))
        (downRows (F := F) (Host.rsqrt (addf var (broadcastInDim S128 ![] bcast_S_S128 (constant (F := F) S_ .f32 0x3727C5AC#32))))))
      (downRows (F := F) gamma))
    (downRows (F := F) beta)

/-- The first dense stage: the normalised features times the `[128, 128]` weights. -/
def dense1 (x0 : (⟨S50000x128, .f32⟩ : BufTy).Contents (Elt F)) (gamma beta mean var : (⟨S128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none (normalise (F := F) x0 gamma beta mean var) w

/-- The second dense stage: normalised, rectified, times the `[128, 2]` weights. -/
def dense2 (a : (⟨S50000x128, .f32⟩ : BufTy).Contents (Elt F)) (gamma beta mean var : (⟨S128, .f32⟩ : BufTy).Contents (Elt F)) (w : (⟨S128x2, .f32⟩ : BufTy).Contents (Elt F)) : (⟨S50000x2, .f32⟩ : BufTy).Contents (Elt F) :=
  Host.dotGeneral dot_S50000x128_S128x2_S50000x2_1_0_0_1_n_n none
    (maximumf (normalise (F := F) a gamma beta mean var) (broadcastInDim S50000x128 ![] bcast_S_S50000x128 (constant (F := F) S_ .f32 0x00000000#32))) w

/-- The whole network: dense, aggregate, dense, aggregate. -/
def forward (x0 : (⟨S50000x128, .f32⟩ : BufTy).Contents (Elt F)) (x1 : (⟨S2x1600000, .i32⟩ : BufTy).Contents (Elt F)) (x2 x3 x4 x5 : (⟨S128, .f32⟩ : BufTy).Contents (Elt F)) (x6 : (⟨S128x128, .f32⟩ : BufTy).Contents (Elt F))
    (x7 x8 x9 x10 x11 : (⟨S128, .f32⟩ : BufTy).Contents (Elt F)) (x12 : (⟨S128x2, .f32⟩ : BufTy).Contents (Elt F)) (x13 : (⟨S2, .f32⟩ : BufTy).Contents (Elt F)) : (⟨S50000x2, .f32⟩ : BufTy).Contents (Elt F) :=
  aggregate2 (F := F) (dense2 (F := F) (aggregate128 (F := F) (dense1 (F := F) x0 x2 x3 x4 x5 x6) x1 x7) x8 x9 x10 x11 x12) x1 x13

end Cert.Gcn

end
-- ==== Proof.RefRun.lean ====
/-
  The idealized reference's run, read back.

  The reference is one straight line of 161 host operations. Its buffers after the line are the fold of the
  operations over the launch memory, and the fold at the result buffer is the network of `Cert.Gcn.forward`
  applied to the fourteen argument arrays: the program computes the edge ends, the degrees and the edge
  weights twice, once per aggregation, and both computations are the same functions of the edge list.
  Stated here: every weakly fair execution terminates without a fault, the result buffer ends at
  `forward` of the arguments and the arguments end as launched.
-/
import proofs.«124366_j57750130262575_1_alg».proof.Proof.Gcn
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The program's 161 operations, in order; the operations of a called function stand in its call's place. -/
abbrev ops : List (HloOp τ sig (Elt F)) :=
  [ unary main_arg4 main_v0 (broadcastInDim S1x128 ![1] bcast_S128_S1x128_1 : (⟨S128, .f32⟩ : BufTy).Contents (Elt F) → (⟨S1x128, .f32⟩ : BufTy).Contents (Elt F)),
    unary main_v0 main_v1 (broadcastInDim S50000x128 ![0, 1] bcast_S1x128_S50000x128_0_1 : (⟨S1x128, .f32⟩ : BufTy).Contents (Elt F) → (⟨S50000x128, .f32⟩ : BufTy).Contents (Elt F)),
    binary main_arg0 main_v1 main_v2 (subf : (⟨S50000x128, .f32⟩ : BufTy).Contents (Elt F) → (⟨S50000x128, .f32⟩ : BufTy).Contents (Elt F) → (⟨S50000x128, .f32⟩ : BufTy).Contents (Elt F)),
    nullary main_cst (constant S_ .f32 0x3727C5AC#32),
    unary main_cst main_v3 (broadcastInDim S128 ![] bcast_S_S128 : (⟨S_, .f32⟩ : BufTy).Contents (Elt F) → (⟨S128, .f32⟩ : BufTy).Contents (Elt F)),
    binary main_arg5 main_v3 main_v4 (addf : (⟨S128, .f32⟩ : BufTy).Contents (Elt F) → (⟨S128, .f32⟩ : BufTy).Contents (Elt F) → (⟨S128, .f32⟩ : BufTy).Contents (Elt F)),
    unary main_v4 main_v5 (Host.rsqrt : (⟨S128, .f32⟩ : BufTy).Contents (Elt F) → (⟨S128, .f32⟩ : BufTy).Contents (Elt F)),
    unary main_v5 main_v6 (broadcastInDim S1x128 ![1] bcast_S128_S1x128_1 : (⟨S128, .f32⟩ : BufTy).Contents (Elt F) → (⟨S1x128, .f32⟩ : BufTy).Contents (Elt F)),
    unary main_v6 main_v7 (broadcastInDim S50000x128 ![0, 1] bcast_S1x128_S50000x128_0_1 : (⟨S1x128, .f32⟩ : BufTy).Contents (Elt F) → (⟨S50000x128, .f32⟩ : BufTy).Contents (Elt F)),
    binary main_v2 main_v7 main_v8 (mulf : (⟨S50000x128, .f32⟩ : BufTy).Contents (Elt F) → (⟨S50000x128, .f32⟩ : BufTy).Contents (Elt F) → (⟨S50000x128, .f32⟩ : BufTy).Contents (Elt F)),
    unary main_arg2 main_v9 (broadcastInDim S1x128 ![1] bcast_S128_S1x128_1 : (⟨S128, .f32⟩ : BufTy).Contents (Elt F) → (⟨S1x128, .f32⟩ : BufTy).Contents (Elt F)),
    unary main_v9 main_v10 (broadcastInDim S50000x128 ![0, 1] bcast_S1x128_S50000x128_0_1 : (⟨S1x128, .f32⟩ : BufTy).Contents (Elt F) → (⟨S50000x128, .f32⟩ : BufTy).Contents (Elt F)),
    binary main_v8 main_v10 main_v11 (mulf : (⟨S50000x128, .f32⟩ : BufTy).Contents (Elt F) → (⟨S50000x128, .f32⟩ : BufTy).Contents (Elt F) → (⟨S50000x128, .f32⟩ : BufTy).Contents (Elt F)),
    unary main_arg3 main_v12 (broadcastInDim S1x128 ![1] bcast_S128_S1x128_1 : (⟨S128, .f32⟩ : BufTy).Contents (Elt F) → (⟨S1x128, .f32⟩ : BufTy).Contents (Elt F)),
    unary main_v12 main_v13 (broadcastInDim S50000x128 ![0, 1] bcast_S1x128_S50000x128_0_1 : (⟨S1x128, .f32⟩ : BufTy).Contents (Elt F) → (⟨S50000x128, .f32⟩ : BufTy).Contents (Elt F)),
    binary main_v11 main_v13 main_v14 (addf : (⟨S50000x128, .f32⟩ : BufTy).Contents (Elt F) → (⟨S50000x128, .f32⟩ : BufTy).Contents (Elt F) → (⟨S50000x128, .f32⟩ : BufTy).Contents (Elt F)),
    binary main_v14 main_arg6 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v16 (iotaInDim S50000 32 0),
    unary main_arg1 main_v17 ((extractStridedSlice S1x1600000 ![0, 0] · slices_S2x1600000_S1x1600000_0_0) : (⟨S2x1600000, .i32⟩ : BufTy).Contents (Elt F) → (⟨S1x1600000, .i32⟩ : BufTy).Contents (Elt F)),
    reshape main_v17 main_v18 rfl shapeCasts_S1x1600000_S1600000,
    binary main_v18 main_v16 main_v19 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v20 ((extractStridedSlice S1x1600000 ![1, 0] · slices_S2x1600000_S1x1600000_1_0) : (⟨S2x1600000, .i32⟩ : BufTy).Contents (Elt F) → (⟨S1x1600000, .i32⟩ : BufTy).Contents (Elt F)),
    reshape main_v20 main_v21 rfl shapeCasts_S1x1600000_S1600000,
    binary main_v21 main_v16 main_v22 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_0 (constant S_ .f32 0x3F800000#32),
    unary main_cst_0 main_v23 (broadcastInDim S1650000 ![] bcast_S_S1650000 : (⟨S_, .f32⟩ : BufTy).Contents (Elt F) → (⟨S1650000, .f32⟩ : BufTy).Contents (Elt F)),
    nullary main_cst_1 (constant S_ .f32 0x00000000#32),
    unary main_cst_1 main_v24 (broadcastInDim S50000 ![] bcast_S_S50000 : (⟨S_, .f32⟩ : BufTy).Contents (Elt F) → (⟨S50000, .f32⟩ : BufTy).Contents (Elt F)),
    unary main_v22 main_v25 (broadcastInDim S1650000x1 ![0] bcast_S1650000_S1650000x1_0 : (⟨S1650000, .i32⟩ : BufTy).Contents (Elt F) → (⟨S1650000x1, .i32⟩ : BufTy).Contents (Elt F)),
    ternary main_v24 main_v25 main_v23 main_v26 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_2 (constant S_ .f32 0x00000000#32),
    unary main_cst_2 main_v27 (broadcastInDim S50000 ![] bcast_S_S50000 : (⟨S_, .f32⟩ : BufTy).Contents (Elt F) → (⟨S50000, .f32⟩ : BufTy).Contents (Elt F)),
    binary main_v26 main_v27 main_v28 (cmpf .ogt : (⟨S50000, .f32⟩ : BufTy).Contents (Elt F) → (⟨S50000, .f32⟩ : BufTy).Contents (Elt F) → (⟨S50000, .i1⟩ : BufTy).Contents (Elt F)),
    nullary main_cst_3 (constant S_ .f32 0x3F800000#32),
    unary main_cst_3 main_v29 (broadcastInDim S50000 ![] bcast_S_S50000 : (⟨S_, .f32⟩ : BufTy).Contents (Elt F) → (⟨S50000, .f32⟩ : BufTy).Contents (Elt F)),
    binary main_v26 main_v29 main_v30 (maximumf : (⟨S50000, .f32⟩ : BufTy).Contents (Elt F) → (⟨S50000, .f32⟩ : BufTy).Contents (Elt F) → (⟨S50000, .f32⟩ : BufTy).Contents (Elt F)),
    unary main_v30 main_v31 (Host.rsqrt : (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v28) (TRef.of (T := ⟨S50000, .f32⟩) main_v31) (TRef.of (T := ⟨S50000, .f32⟩) main_call0_v1) (TRef.of (T := ⟨S50000, .f32⟩) main_v32) select,
    nullary main_c (constantI S_ 32 0#32),
    unary main_c main_v33 (broadcastInDim S1650000 ![] bcast_S_S1650000 : (⟨S_, .i32⟩ : BufTy).Contents (Elt F) → (⟨S1650000, .i32⟩ : BufTy).Contents (Elt F)),
    binary main_v19 main_v33 main_v34 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v35 (broadcastInDim S1650000 ![] bcast_S_S1650000 : (⟨S_, .i32⟩ : BufTy).Contents (Elt F) → (⟨S1650000, .i32⟩ : BufTy).Contents (Elt F)),
    binary main_v19 main_v35 main_v36 (addi : (⟨S1650000, .i32⟩ : BufTy).Contents (Elt F) → (⟨S1650000, .i32⟩ : BufTy).Contents (Elt F) → (⟨S1650000, .i32⟩ : BufTy).Contents (Elt F)),
    ternary main_v34 main_v36 main_v19 main_v37 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v37 main_v38 (broadcastInDim S1650000x1 ![0] bcast_S1650000_S1650000x1_0 : (⟨S1650000, .i32⟩ : BufTy).Contents (Elt F) → (⟨S1650000x1, .i32⟩ : BufTy).Contents (Elt F)),
    binary main_v32 main_v38 main_v39 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_6 (constantI S_ 32 0#32),
    unary main_c_6 main_v40 (broadcastInDim S1650000 ![] bcast_S_S1650000 : (⟨S_, .i32⟩ : BufTy).Contents (Elt F) → (⟨S1650000, .i32⟩ : BufTy).Contents (Elt F)),
    binary main_v22 main_v40 main_v41 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v42 (broadcastInDim S1650000 ![] bcast_S_S1650000 : (⟨S_, .i32⟩ : BufTy).Contents (Elt F) → (⟨S1650000, .i32⟩ : BufTy).Contents (Elt F)),
    binary main_v22 main_v42 main_v43 (addi : (⟨S1650000, .i32⟩ : BufTy).Contents (Elt F) → (⟨S1650000, .i32⟩ : BufTy).Contents (Elt F) → (⟨S1650000, .i32⟩ : BufTy).Contents (Elt F)),
    ternary main_v41 main_v43 main_v22 main_v44 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v44 main_v45 (broadcastInDim S1650000x1 ![0] bcast_S1650000_S1650000x1_0 : (⟨S1650000, .i32⟩ : BufTy).Contents (Elt F) → (⟨S1650000x1, .i32⟩ : BufTy).Contents (Elt F)),
    binary main_v32 main_v45 main_v46 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v39 main_v46 main_v47 (mulf : (⟨S1650000, .f32⟩ : BufTy).Contents (Elt F) → (⟨S1650000, .f32⟩ : BufTy).Contents (Elt F) → (⟨S1650000, .f32⟩ : BufTy).Contents (Elt F)),
    nullary main_c_8 (constantI S_ 32 0#32),
    unary main_c_8 main_v48 (broadcastInDim S1650000 ![] bcast_S_S1650000 : (⟨S_, .i32⟩ : BufTy).Contents (Elt F) → (⟨S1650000, .i32⟩ : BufTy).Contents (Elt F)),
    binary main_v19 main_v48 main_v49 (cmpi .slt : (⟨S1650000, .i32⟩ : BufTy).Contents (Elt F) → (⟨S1650000, .i32⟩ : BufTy).Contents (Elt F) → (⟨S1650000, .i1⟩ : BufTy).Contents (Elt F)),
    nullary main_c_9 (constantI S_ 32 50000#32),
    unary main_c_9 main_v50 (broadcastInDim S1650000 ![] bcast_S_S1650000 : (⟨S_, .i32⟩ : BufTy).Contents (Elt F) → (⟨S1650000, .i32⟩ : BufTy).Contents (Elt F)),
    binary main_v19 main_v50 main_v51 (addi : (⟨S1650000, .i32⟩ : BufTy).Contents (Elt F) → (⟨S1650000, .i32⟩ : BufTy).Contents (Elt F) → (⟨S1650000, .i32⟩ : BufTy).Contents (Elt F)),
    ternary main_v49 main_v51 main_v19 main_v52 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v52 main_v53 (broadcastInDim S1650000x1 ![0] bcast_S1650000_S1650000x1_0 : (⟨S1650000, .i32⟩ : BufTy).Contents (Elt F) → (⟨S1650000x1, .i32⟩ : BufTy).Contents (Elt F)),
    binary main_v15 main_v53 main_v54 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v47 main_v55 (broadcastInDim S1650000x1 ![0] bcast_S1650000_S1650000x1_0 : (⟨S1650000, .f32⟩ : BufTy).Contents (Elt F) → (⟨S1650000x1, .f32⟩ : BufTy).Contents (Elt F)),
    unary main_v55 main_v56 (broadcastInDim S1650000x128 ![0, 1] bcast_S1650000x1_S1650000x128_0_1 : (⟨S1650000x1, .f32⟩ : BufTy).Contents (Elt F) → (⟨S1650000x128, .f32⟩ : BufTy).Contents (Elt F)),
    binary main_v54 main_v56 main_v57 (mulf : (⟨S1650000x128, .f32⟩ : BufTy).Contents (Elt F) → (⟨S1650000x128, .f32⟩ : BufTy).Contents (Elt F) → (⟨S1650000x128, .f32⟩ : BufTy).Contents (Elt F)),
    nullary main_cst_10 (constant S_ .f32 0x00000000#32),
    unary main_cst_10 main_v58 (broadcastInDim S50000x128 ![] bcast_S_S50000x128 : (⟨S_, .f32⟩ : BufTy).Contents (Elt F) → (⟨S50000x128, .f32⟩ : BufTy).Contents (Elt F)),
    unary main_v22 main_v59 (broadcastInDim S1650000x1 ![0] bcast_S1650000_S1650000x1_0 : (⟨S1650000, .i32⟩ : BufTy).Contents (Elt F) → (⟨S1650000x1, .i32⟩ : BufTy).Contents (Elt F)),
    ternary main_v58 main_v59 main_v57 main_v60 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg7 main_v61 (broadcastInDim S1x128 ![1] bcast_S128_S1x128_1 : (⟨S128, .f32⟩ : BufTy).Contents (Elt F) → (⟨S1x128, .f32⟩ : BufTy).Contents (Elt F)),
    unary main_v61 main_v62 (broadcastInDim S50000x128 ![0, 1] bcast_S1x128_S50000x128_0_1 : (⟨S1x128, .f32⟩ : BufTy).Contents (Elt F) → (⟨S50000x128, .f32⟩ : BufTy).Contents (Elt F)),
    binary main_v60 main_v62 main_v63 (addf : (⟨S50000x128, .f32⟩ : BufTy).Contents (Elt F) → (⟨S50000x128, .f32⟩ : BufTy).Contents (Elt F) → (⟨S50000x128, .f32⟩ : BufTy).Contents (Elt F)),
    unary main_arg10 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v63 main_v65 main_v66 (subf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x3727C5AC#32),
    unary main_cst_11 main_v67 (broadcastInDim S128 ![] bcast_S_S128 : (⟨S_, .f32⟩ : BufTy).Contents (Elt F) → (⟨S128, .f32⟩ : BufTy).Contents (Elt F)),
    binary main_arg11 main_v67 main_v68 (addf : (⟨S128, .f32⟩ : BufTy).Contents (Elt F) → (⟨S128, .f32⟩ : BufTy).Contents (Elt F) → (⟨S128, .f32⟩ : BufTy).Contents (Elt F)),
    unary main_v68 main_v69 (Host.rsqrt : (⟨S128, .f32⟩ : BufTy).Contents (Elt F) → (⟨S128, .f32⟩ : BufTy).Contents (Elt F)),
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v66 main_v71 main_v72 (mulf : (⟨S50000x128, .f32⟩ : BufTy).Contents (Elt F) → (⟨S50000x128, .f32⟩ : BufTy).Contents (Elt F) → (⟨S50000x128, .f32⟩ : BufTy).Contents (Elt F)),
    unary main_arg8 main_v73 (broadcastInDim S1x128 ![1] bcast_S128_S1x128_1 : (⟨S128, .f32⟩ : BufTy).Contents (Elt F) → (⟨S1x128, .f32⟩ : BufTy).Contents (Elt F)),
    unary main_v73 main_v74 (broadcastInDim S50000x128 ![0, 1] bcast_S1x128_S50000x128_0_1 : (⟨S1x128, .f32⟩ : BufTy).Contents (Elt F) → (⟨S50000x128, .f32⟩ : BufTy).Contents (Elt F)),
    binary main_v72 main_v74 main_v75 (mulf : (⟨S50000x128, .f32⟩ : BufTy).Contents (Elt F) → (⟨S50000x128, .f32⟩ : BufTy).Contents (Elt F) → (⟨S50000x128, .f32⟩ : BufTy).Contents (Elt F)),
    unary main_arg9 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v75 main_v77 main_v78 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v78) (TRef.of (T := ⟨S50000x128, .f32⟩) main_call1_v0) (TRef.of (T := ⟨S50000x128, .f32⟩) main_v79) maximumf,
    binary main_v79 main_arg12 main_v80 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    nullary main_v81 (iotaInDim S50000 32 0),
    unary main_arg1 main_v82 ((extractStridedSlice S1x1600000 ![0, 0] · slices_S2x1600000_S1x1600000_0_0) : (⟨S2x1600000, .i32⟩ : BufTy).Contents (Elt F) → (⟨S1x1600000, .i32⟩ : BufTy).Contents (Elt F)),
    reshape main_v82 main_v83 rfl shapeCasts_S1x1600000_S1600000,
    binary main_v83 main_v81 main_v84 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v85 ((extractStridedSlice S1x1600000 ![1, 0] · slices_S2x1600000_S1x1600000_1_0) : (⟨S2x1600000, .i32⟩ : BufTy).Contents (Elt F) → (⟨S1x1600000, .i32⟩ : BufTy).Contents (Elt F)),
    reshape main_v85 main_v86 rfl shapeCasts_S1x1600000_S1600000,
    binary main_v86 main_v81 main_v87 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_12 (constant S_ .f32 0x3F800000#32),
    unary main_cst_12 main_v88 (broadcastInDim S1650000 ![] bcast_S_S1650000 : (⟨S_, .f32⟩ : BufTy).Contents (Elt F) → (⟨S1650000, .f32⟩ : BufTy).Contents (Elt F)),
    nullary main_cst_13 (constant S_ .f32 0x00000000#32),
    unary main_cst_13 main_v89 (broadcastInDim S50000 ![] bcast_S_S50000 : (⟨S_, .f32⟩ : BufTy).Contents (Elt F) → (⟨S50000, .f32⟩ : BufTy).Contents (Elt F)),
    unary main_v87 main_v90 (broadcastInDim S1650000x1 ![0] bcast_S1650000_S1650000x1_0 : (⟨S1650000, .i32⟩ : BufTy).Contents (Elt F) → (⟨S1650000x1, .i32⟩ : BufTy).Contents (Elt F)),
    ternary main_v89 main_v90 main_v88 main_v91 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_14 (constant S_ .f32 0x00000000#32),
    unary main_cst_14 main_v92 (broadcastInDim S50000 ![] bcast_S_S50000 : (⟨S_, .f32⟩ : BufTy).Contents (Elt F) → (⟨S50000, .f32⟩ : BufTy).Contents (Elt F)),
    binary main_v91 main_v92 main_v93 (cmpf .ogt : (⟨S50000, .f32⟩ : BufTy).Contents (Elt F) → (⟨S50000, .f32⟩ : BufTy).Contents (Elt F) → (⟨S50000, .i1⟩ : BufTy).Contents (Elt F)),
    nullary main_cst_15 (constant S_ .f32 0x3F800000#32),
    unary main_cst_15 main_v94 (broadcastInDim S50000 ![] bcast_S_S50000 : (⟨S_, .f32⟩ : BufTy).Contents (Elt F) → (⟨S50000, .f32⟩ : BufTy).Contents (Elt F)),
    binary main_v91 main_v94 main_v95 (maximumf : (⟨S50000, .f32⟩ : BufTy).Contents (Elt F) → (⟨S50000, .f32⟩ : BufTy).Contents (Elt F) → (⟨S50000, .f32⟩ : BufTy).Contents (Elt F)),
    unary main_v95 main_v96 (Host.rsqrt : (⟨S50000, .f32⟩ : BufTy).Contents (Elt F) → (⟨S50000, .f32⟩ : BufTy).Contents (Elt F)),
    nullary main_cst_16 (constant S_ .f32 0x00000000#32),
    TRef.unary (TRef.of (T := ⟨S_, .f32⟩) main_cst_16) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v93) (TRef.of (T := ⟨S50000, .f32⟩) main_v96) (TRef.of (T := ⟨S50000, .f32⟩) main_call2_v1) (TRef.of (T := ⟨S50000, .f32⟩) main_v97) select,
    nullary main_c_17 (constantI S_ 32 0#32),
    unary main_c_17 main_v98 (broadcastInDim S1650000 ![] bcast_S_S1650000 : (⟨S_, .i32⟩ : BufTy).Contents (Elt F) → (⟨S1650000, .i32⟩ : BufTy).Contents (Elt F)),
    binary main_v84 main_v98 main_v99 (cmpi .slt : (⟨S1650000, .i32⟩ : BufTy).Contents (Elt F) → (⟨S1650000, .i32⟩ : BufTy).Contents (Elt F) → (⟨S1650000, .i1⟩ : BufTy).Contents (Elt F)),
    nullary main_c_18 (constantI S_ 32 50000#32),
    unary main_c_18 main_v100 (broadcastInDim S1650000 ![] bcast_S_S1650000 : (⟨S_, .i32⟩ : BufTy).Contents (Elt F) → (⟨S1650000, .i32⟩ : BufTy).Contents (Elt F)),
    binary main_v84 main_v100 main_v101 (addi : (⟨S1650000, .i32⟩ : BufTy).Contents (Elt F) → (⟨S1650000, .i32⟩ : BufTy).Contents (Elt F) → (⟨S1650000, .i32⟩ : BufTy).Contents (Elt F)),
    ternary main_v99 main_v101 main_v84 main_v102 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v102 main_v103 (broadcastInDim S1650000x1 ![0] bcast_S1650000_S1650000x1_0 : (⟨S1650000, .i32⟩ : BufTy).Contents (Elt F) → (⟨S1650000x1, .i32⟩ : BufTy).Contents (Elt F)),
    binary main_v97 main_v103 main_v104 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_19 (constantI S_ 32 0#32),
    unary main_c_19 main_v105 (broadcastInDim S1650000 ![] bcast_S_S1650000 : (⟨S_, .i32⟩ : BufTy).Contents (Elt F) → (⟨S1650000, .i32⟩ : BufTy).Contents (Elt F)),
    binary main_v87 main_v105 main_v106 (cmpi .slt : (⟨S1650000, .i32⟩ : BufTy).Contents (Elt F) → (⟨S1650000, .i32⟩ : BufTy).Contents (Elt F) → (⟨S1650000, .i1⟩ : BufTy).Contents (Elt F)),
    nullary main_c_20 (constantI S_ 32 50000#32),
    unary main_c_20 main_v107 (broadcastInDim S1650000 ![] bcast_S_S1650000 : (⟨S_, .i32⟩ : BufTy).Contents (Elt F) → (⟨S1650000, .i32⟩ : BufTy).Contents (Elt F)),
    binary main_v87 main_v107 main_v108 (addi : (⟨S1650000, .i32⟩ : BufTy).Contents (Elt F) → (⟨S1650000, .i32⟩ : BufTy).Contents (Elt F) → (⟨S1650000, .i32⟩ : BufTy).Contents (Elt F)),
    ternary main_v106 main_v108 main_v87 main_v109 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v109 main_v110 (broadcastInDim S1650000x1 ![0] bcast_S1650000_S1650000x1_0 : (⟨S1650000, .i32⟩ : BufTy).Contents (Elt F) → (⟨S1650000x1, .i32⟩ : BufTy).Contents (Elt F)),
    binary main_v97 main_v110 main_v111 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v104 main_v111 main_v112 (mulf : (⟨S1650000, .f32⟩ : BufTy).Contents (Elt F) → (⟨S1650000, .f32⟩ : BufTy).Contents (Elt F) → (⟨S1650000, .f32⟩ : BufTy).Contents (Elt F)),
    nullary main_c_21 (constantI S_ 32 0#32),
    unary main_c_21 main_v113 (broadcastInDim S1650000 ![] bcast_S_S1650000 : (⟨S_, .i32⟩ : BufTy).Contents (Elt F) → (⟨S1650000, .i32⟩ : BufTy).Contents (Elt F)),
    binary main_v84 main_v113 main_v114 (cmpi .slt : (⟨S1650000, .i32⟩ : BufTy).Contents (Elt F) → (⟨S1650000, .i32⟩ : BufTy).Contents (Elt F) → (⟨S1650000, .i1⟩ : BufTy).Contents (Elt F)),
    nullary main_c_22 (constantI S_ 32 50000#32),
    unary main_c_22 main_v115 (broadcastInDim S1650000 ![] bcast_S_S1650000 : (⟨S_, .i32⟩ : BufTy).Contents (Elt F) → (⟨S1650000, .i32⟩ : BufTy).Contents (Elt F)),
    binary main_v84 main_v115 main_v116 (addi : (⟨S1650000, .i32⟩ : BufTy).Contents (Elt F) → (⟨S1650000, .i32⟩ : BufTy).Contents (Elt F) → (⟨S1650000, .i32⟩ : BufTy).Contents (Elt F)),
    ternary main_v114 main_v116 main_v84 main_v117 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v117 main_v118 (broadcastInDim S1650000x1 ![0] bcast_S1650000_S1650000x1_0 : (⟨S1650000, .i32⟩ : BufTy).Contents (Elt F) → (⟨S1650000x1, .i32⟩ : BufTy).Contents (Elt F)),
    binary main_v80 main_v118 main_v119 ((fun x i => Host.gather gather_S50000x2_S1650000x1_S1650000x2_1_0_n_n_0_1_12 x i) : (⟨S50000x2, .f32⟩ : BufTy).Contents (Elt F) → (⟨S1650000x1, .i32⟩ : BufTy).Contents (Elt F) → (⟨S1650000x2, .f32⟩ : BufTy).Contents (Elt F)),
    unary main_v112 main_v120 (broadcastInDim S1650000x1 ![0] bcast_S1650000_S1650000x1_0 : (⟨S1650000, .f32⟩ : BufTy).Contents (Elt F) → (⟨S1650000x1, .f32⟩ : BufTy).Contents (Elt F)),
    unary main_v120 main_v121 (broadcastInDim S1650000x2 ![0, 1] bcast_S1650000x1_S1650000x2_0_1 : (⟨S1650000x1, .f32⟩ : BufTy).Contents (Elt F) → (⟨S1650000x2, .f32⟩ : BufTy).Contents (Elt F)),
    binary main_v119 main_v121 main_v122 (mulf : (⟨S1650000x2, .f32⟩ : BufTy).Contents (Elt F) → (⟨S1650000x2, .f32⟩ : BufTy).Contents (Elt F) → (⟨S1650000x2, .f32⟩ : BufTy).Contents (Elt F)),
    nullary main_cst_23 (constant S_ .f32 0x00000000#32),
    unary main_cst_23 main_v123 (broadcastInDim S50000x2 ![] bcast_S_S50000x2 : (⟨S_, .f32⟩ : BufTy).Contents (Elt F) → (⟨S50000x2, .f32⟩ : BufTy).Contents (Elt F)),
    unary main_v87 main_v124 (broadcastInDim S1650000x1 ![0] bcast_S1650000_S1650000x1_0 : (⟨S1650000, .i32⟩ : BufTy).Contents (Elt F) → (⟨S1650000x1, .i32⟩ : BufTy).Contents (Elt F)),
    ternary main_v123 main_v124 main_v122 main_v125 ((fun x i u => Host.scatterAdd scatter_S50000x2_S1650000x1_S1650000x2_1_0_0_1 x i u) : (⟨S50000x2, .f32⟩ : BufTy).Contents (Elt F) → (⟨S1650000x1, .i32⟩ : BufTy).Contents (Elt F) → (⟨S1650000x2, .f32⟩ : BufTy).Contents (Elt F) → (⟨S50000x2, .f32⟩ : BufTy).Contents (Elt F)),
    unary main_arg13 main_v126 (broadcastInDim S1x2 ![1] bcast_S2_S1x2_1 : (⟨S2, .f32⟩ : BufTy).Contents (Elt F) → (⟨S1x2, .f32⟩ : BufTy).Contents (Elt F)),
    unary main_v126 main_v127 (broadcastInDim S50000x2 ![0, 1] bcast_S1x2_S50000x2_0_1 : (⟨S1x2, .f32⟩ : BufTy).Contents (Elt F) → (⟨S50000x2, .f32⟩ : BufTy).Contents (Elt F)),
    binary main_v125 main_v127 main_v128 (addf : (⟨S50000x2, .f32⟩ : BufTy).Contents (Elt F) → (⟨S50000x2, .f32⟩ : BufTy).Contents (Elt F) → (⟨S50000x2, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- The network of the fourteen argument arrays as launched. -/
def result (m : (ℓ : Loc nD τ sig) → Buf (Elt F) ℓ) (c : Dev nD) : Buf (Elt F) ((c.tc : Thread nD τ).loc main_v128) :=
  Cert.Gcn.forward (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

set_option maxRecDepth 8192 in
set_option maxHeartbeats 64400000 in
/-- The fold of the line over the launch memory, at the result buffer, is the network of the arguments. -/
theorem after_result (m : (ℓ : Loc nD τ sig) → Buf (Elt F) ℓ) (c : Dev nD) :
    after (ops (F := F)) (launchContents m c) (Proc.devRef .tc main_v128) = result m c := by
  after_results_simp
  rfl

set_option maxRecDepth 8192 in
set_option maxHeartbeats 64400000 in
/-- On every device, from any memory with zero counters: every weakly fair execution of the reference terminates with
    the result at the network of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v128) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v128).trans (after_result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_seq scopedRefs_eq scopedSems_eq defs main (fun _ => ops) main_eq (fun _ => ops_sub) m ρ)

end Cert.ReferenceIdeal.Line

end
-- ==== Proof.KernelRun.lean ====
/-
  The idealized kernel's run, with the result array named.

  The program is five stretches of host operations around two pipelined regions. Its buffers after the
  last stretch are a fold from the launch memory: each host stretch rewrites the buffers its operations
  write, each region leaves its output array at what its write-backs put there and every other buffer
  alone. This module states the run against that fold at the result buffer as well as at the fourteen
  argument buffers: every weakly fair execution terminates, nothing faults, the result buffer ends at the
  fold's contents there and the arguments end as launched.
-/
import proofs.«124366_j57750130262575_1_alg».proof.Proof.Gen.KernelIdeal.Frame

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at the
    contents the fold through the program's segments gives it, and every argument buffer ends as launched. -/
theorem run : θ_run defs (onTc (τ := τ) (main (F := F))) ⟨m, fun _ => 0, ρ⟩ (fun r => ∀ c : Dev nD,
      r.2.mem ((c : Thread nD τ).loc main_v73) = W7 m ρ c (Proc.devRef .tc main_v73)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v73 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.KernelIdeal.Fold

end
-- ==== Proof.KernelHost.lean ====
/-
  The kernel program's host stretches, read as whole-array functions.

  Around its two regions the kernel program runs the same host operations the reference runs: before the first
  region the edge ends, the degrees and the edge weights (and the parameter vectors given a unit leading axis);
  between the regions the first aggregation (and the second set of parameter vectors); after the second region the
  second aggregation. Each stretch is read here from ANY buffer contents `V` it is entered at: the buffers it writes
  are the stages of `Cert.Gcn` of the buffers it reads, and every other buffer keeps its contents. The two programs
  print the same dimension records under different names; the records are equal field by field.
-/
import proofs.«124366_j57750130262575_1_alg».proof.Proof.Gen.KernelIdeal.Launch
import proofs.«124366_j57750130262575_1_alg».proof.Proof.Gcn
import Idealize.ShloMosaic.Lib.StableHlo.Run

set_option maxRecDepth 8192

noncomputable section

namespace Cert.KernelIdeal.Stretches

open Cert.KernelIdeal Cert.KernelIdeal.Gen Idealize.ShloMosaic Idealize.ShloMosaic.TcCoe Idealize.SL.Sem Idealize.ShloMosaic.StableHlo

variable {F : FTy → Type} [FloatOps F] (V : Valuation τ sig (Elt F))

/-! ## Before the first region -/

/-- The buffer contents the first region is entered at, from contents `V` at the launch. -/
abbrev entry1 : Valuation τ sig (Elt F) := after hostOps0_2 (after hostOps0_1 (after hostOps0 V))

set_option maxHeartbeats 4000000 in
/-- The gather sources: the edge list's first row and the self-loops. -/
theorem entry1_sources : entry1 V (Proc.devRef .tc main_v3) = Cert.Gcn.sources (F := F) (V (Proc.devRef .tc main_arg1)) := by
  after_results_simp <;> rfl

set_option maxHeartbeats 4000000 in
/-- The scatter targets: the edge list's second row and the self-loops. -/
theorem entry1_targets : entry1 V (Proc.devRef .tc main_v6) = Cert.Gcn.targets (F := F) (V (Proc.devRef .tc main_arg1)) := by
  after_results_simp <;> rfl

set_option maxHeartbeats 16000000 in
/-- The edge weights. -/
theorem entry1_weights : entry1 V (Proc.devRef .tc main_v31) = Cert.Gcn.edgeWeight (F := F) (V (Proc.devRef .tc main_arg1)) := by
  after_results_simp <;> rfl

set_option maxHeartbeats 4000000 in
/-- Parameter vector 2 given a unit leading axis. -/
theorem entry1_v32 : entry1 V (Proc.devRef .tc main_v32) = shapeCast S1x128 (V (Proc.devRef .tc main_arg2)) shapeCasts_S128_S1x128 := by
  after_results_simp <;> rfl

set_option maxHeartbeats 4000000 in
/-- Parameter vector 3 given a unit leading axis. -/
theorem entry1_v33 : entry1 V (Proc.devRef .tc main_v33) = shapeCast S1x128 (V (Proc.devRef .tc main_arg3)) shapeCasts_S128_S1x128 := by
  after_results_simp <;> rfl

set_option maxHeartbeats 4000000 in
/-- Parameter vector 4 given a unit leading axis. -/
theorem entry1_v34 : entry1 V (Proc.devRef .tc main_v34) = shapeCast S1x128 (V (Proc.devRef .tc main_arg4)) shapeCasts_S128_S1x128 := by
  after_results_simp <;> rfl

set_option maxHeartbeats 4000000 in
/-- Parameter vector 5 given a unit leading axis. -/
theorem entry1_v35 : entry1 V (Proc.devRef .tc main_v35) = shapeCast S1x128 (V (Proc.devRef .tc main_arg5)) shapeCasts_S128_S1x128 := by
  after_results_simp <;> rfl

set_option maxHeartbeats 4000000 in
theorem entry1_main_arg0 : entry1 V (Proc.devRef .tc main_arg0) = V (Proc.devRef .tc main_arg0) := by
  after_results_simp

set_option maxHeartbeats 4000000 in
theorem entry1_main_arg6 : entry1 V (Proc.devRef .tc main_arg6) = V (Proc.devRef .tc main_arg6) := by
  after_results_simp

set_option maxHeartbeats 4000000 in
theorem entry1_main_arg7 : entry1 V (Proc.devRef .tc main_arg7) = V (Proc.devRef .tc main_arg7) := by
  after_results_simp

set_option maxHeartbeats 4000000 in
theorem entry1_main_arg8 : entry1 V (Proc.devRef .tc main_arg8) = V (Proc.devRef .tc main_arg8) := by
  after_results_simp

set_option maxHeartbeats 4000000 in
theorem entry1_main_arg9 : entry1 V (Proc.devRef .tc main_arg9) = V (Proc.devRef .tc main_arg9) := by
  after_results_simp

set_option maxHeartbeats 4000000 in
theorem entry1_main_arg10 : entry1 V (Proc.devRef .tc main_arg10) = V (Proc.devRef .tc main_arg10) := by
  after_results_simp

set_option maxHeartbeats 4000000 in
theorem entry1_main_arg11 : entry1 V (Proc.devRef .tc main_arg11) = V (Proc.devRef .tc main_arg11) := by
  after_results_simp

set_option maxHeartbeats 4000000 in
theorem entry1_main_arg12 : entry1 V (Proc.devRef .tc main_arg12) = V (Proc.devRef .tc main_arg12) := by
  after_results_simp

set_option maxHeartbeats 4000000 in
theorem entry1_main_arg13 : entry1 V (Proc.devRef .tc main_arg13) = V (Proc.devRef .tc main_arg13) := by
  after_results_simp

/-! ## Between the regions -/

section Mid
variable (x1 : (⟨Cert.ReferenceIdeal.S2x1600000, .i32⟩ : BufTy).Contents (Elt F))
  (hs : V (Proc.devRef .tc main_v3) = Cert.Gcn.sources (F := F) x1) (ht : V (Proc.devRef .tc main_v6) = Cert.Gcn.targets (F := F) x1)
  (hw : V (Proc.devRef .tc main_v31) = Cert.Gcn.edgeWeight (F := F) x1)

include hs ht hw in
set_option maxHeartbeats 8000000 in
/-- The first aggregation, of the first region's output, plus the first bias. -/
theorem mid_aggregate : after hostOps1 V (Proc.devRef .tc main_v52)
    = Cert.Gcn.aggregate128 (F := F) (V (Proc.devRef .tc main_v36)) x1 (V (Proc.devRef .tc main_arg7)) := by
  after_results_simp
  rw [hs, ht, hw]
  rfl

include hs ht hw in
set_option maxHeartbeats 8000000 in
/-- The second aggregation, of the second region's output, plus the second bias. -/
theorem tail_aggregate : after hostOps2 V (Proc.devRef .tc main_v73)
    = Cert.Gcn.aggregate2 (F := F) (V (Proc.devRef .tc main_v57)) x1 (V (Proc.devRef .tc main_arg13)) := by
  after_results_simp
  rw [hs, ht, hw]
  rfl

end Mid

set_option maxHeartbeats 4000000 in
/-- Parameter vector 8 given a unit leading axis. -/
theorem mid_v53 : after hostOps1 V (Proc.devRef .tc main_v53) = shapeCast S1x128 (V (Proc.devRef .tc main_arg8)) shapeCasts_S128_S1x128 := by
  after_results_simp <;> rfl

set_option maxHeartbeats 4000000 in
/-- Parameter vector 9 given a unit leading axis. -/
theorem mid_v54 : after hostOps1 V (Proc.devRef .tc main_v54) = shapeCast S1x128 (V (Proc.devRef .tc main_arg9)) shapeCasts_S128_S1x128 := by
  after_results_simp <;> rfl

set_option maxHeartbeats 4000000 in
/-- Parameter vector 10 given a unit leading axis. -/
theorem mid_v55 : after hostOps1 V (Proc.devRef .tc main_v55) = shapeCast S1x128 (V (Proc.devRef .tc main_arg10)) shapeCasts_S128_S1x128 := by
  after_results_simp <;> rfl

set_option maxHeartbeats 4000000 in
/-- Parameter vector 11 given a unit leading axis. -/
theorem mid_v56 : after hostOps1 V (Proc.devRef .tc main_v56) = shapeCast S1x128 (V (Proc.devRef .tc main_arg11)) shapeCasts_S128_S1x128 := by
  after_results_simp <;> rfl

set_option maxHeartbeats 4000000 in
theorem mid_main_arg12 : after hostOps1 V (Proc.devRef .tc main_arg12) = V (Proc.devRef .tc main_arg12) := by
  after_results_simp

set_option maxHeartbeats 4000000 in
theorem mid_main_arg13 : after hostOps1 V (Proc.devRef .tc main_arg13) = V (Proc.devRef .tc main_arg13) := by
  after_results_simp

set_option maxHeartbeats 4000000 in
theorem mid_main_v3 : after hostOps1 V (Proc.devRef .tc main_v3) = V (Proc.devRef .tc main_v3) := by
  after_results_simp

set_option maxHeartbeats 4000000 in
theorem mid_main_v6 : after hostOps1 V (Proc.devRef .tc main_v6) = V (Proc.devRef .tc main_v6) := by
  after_results_simp

set_option maxHeartbeats 4000000 in
theorem mid_main_v31 : after hostOps1 V (Proc.devRef .tc main_v31) = V (Proc.devRef .tc main_v31) := by
  after_results_simp

end Cert.KernelIdeal.Stretches

end
-- ==== Proof.DenseRows.lean ====
/-
  One entry of a normalised-then-multiplied feature matrix, over the extended reals.

  Both programs normalise a feature matrix column by column with fixed statistics and multiply the result by a weight
  matrix. Entry `(p, q)` of that product is `∑ k, normEntry ε a[p, k] γ[k] β[k] μ[k] v[k] · w[k, q]` (with the
  normalised entry rectified first in the second stage); this file names the entry and the constant `ε`.
-/
import Idealize.ShloMosaic.PureOps.Ideal

noncomputable section

namespace Cert.DenseRows

open Idealize.ShloMosaic

/-- The variance offset both programs print: the `f32` pattern of `1e-5`, read as the number it denotes. -/
def eps : EReal := Ideal.ofBits .f32 0x3727C5AC#32

/-- One normalised entry: `(a - μ) · (v + ε)^(-1/2) · γ + β`. -/
def normEntry (a gamma beta mean var : EReal) : EReal :=
  (a - mean) * Ideal.rsqrt (var + eps) * gamma + beta

/-- The rectified normalised entry: its maximum with the zero pattern's value. -/
def reluNormEntry (a gamma beta mean var : EReal) : EReal :=
  max (normEntry a gamma beta mean var) (Ideal.ofBits .f32 0x00000000#32)

end Cert.DenseRows

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.Stage1.lean ====
/-
  The first pipelined region: what its output array holds when the region ends.

  The region walks the 50000 rows in ten blocks of 5000. At block `t` the body reads rows `5000·t … 5000·t + 4999` of
  the feature matrix, the four `[1, 128]` parameter rows and the whole `[128, 128]` weight matrix, normalises the block
  column by column and multiplies it by the weights into a zero accumulator; the block is then written back
  to rows `5000·t …` of the output. A change of float format is the identity on the extended reals and a product
  into a zero accumulator is the plain sum over the contracted axis, so the written block is the same rows of the
  host's dense stage (`Cert.Gcn.dense1`) of the whole arrays; the ten blocks tile the output, so the output array ends
  at that dense stage.
-/
import proofs.«124366_j57750130262575_1_alg».proof.Proof.Gen.KernelIdeal.Frame
import proofs.«124366_j57750130262575_1_alg».proof.Proof.Gcn
import proofs.«124366_j57750130262575_1_alg».proof.Proof.DenseRows
import proofs.«124366_j57750130262575_1_alg».proof.Proof.LibRowLayers
import Idealize.ShloMosaic.Lib.Pipeline.Value
import Idealize.ShloMosaic.Lib.ValueLayout

set_option maxRecDepth 16384

noncomputable section

namespace Cert.KernelIdeal.Stage1

open Idealize.ShloMosaic Idealize.ShloMosaic.TcCoe Idealize.ShloMosaic.ValueIdx Idealize.SL.Sem
open Idealize.ShloMosaic.Pipeline (Dat)
open Cert.KernelIdeal Cert.KernelIdeal.Gen Cert.RowLayers Cert.DenseRows

/-! ## The two matrix products read entry by entry -/

/-- The device's product contracts the block's columns against the weights' rows. -/
theorem deviceDims : RowsTimesCols dot_S5000x128_S128x128_S5000x128_1_0_0_1_n_n where
  rank := rfl
  size := rfl
  lhs0 := fun j q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  lhs1 := fun j q => dot_S5000x128_S128x128_S5000x128_1_0_0_1_n_n.lhsIdx_val_of_single rfl j q
  rhs0 := fun j q => dot_S5000x128_S128x128_S5000x128_1_0_0_1_n_n.rhsIdx_val_of_single rfl j q
  rhs1 := fun j q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- So does the host's, over all 50000 rows. -/
theorem hostDims : RowsTimesCols Cert.ReferenceIdeal.dot_S50000x128_S128x128_S50000x128_1_0_0_1_n_n where
  rank := rfl
  size := rfl
  lhs0 := fun j q => by
    unfold DotDims.lhsIdx
    rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
    rfl
  lhs1 := fun j q => Cert.ReferenceIdeal.dot_S50000x128_S128x128_S50000x128_1_0_0_1_n_n.lhsIdx_val_of_single rfl j q
  rhs0 := fun j q => Cert.ReferenceIdeal.dot_S50000x128_S128x128_S50000x128_1_0_0_1_n_n.rhsIdx_val_of_single rfl j q
  rhs1 := fun j q => by
    unfold DotDims.rhsIdx
    rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
    rfl

/-- A `[1, 128]` parameter row that is a `[128]` vector given a unit leading axis, repeated down a block's rows, reads the
    vector at the column. -/
theorem paramRow_apply (v : S128.Idx → EReal) (hc : S128.ShapeCasts S1x128) (hs : S1x128.ShapeCasts S1x128) (hb : S1x128.Broadcasts S5000x128)
    (p : Fin 5000) (k : Fin 128) :
    broadcastTo S5000x128 (shapeCast S1x128 (shapeCast S1x128 v hc) hs) hb (ix2 p k) = v (ix1 k) := by
  rw [broadcastTo_1b_ab_apply, shapeCast_self, shapeCast_a_1a_apply]

/-- Entry `(p, q)` of what the body stores, from a block of rows, the four parameter vectors and the weights. -/
theorem body_apply (x : Vec Ideal S5000x128 .f32) (gamma beta mean var : S128.Idx → EReal) (w : Vec Ideal S128x128 .f32) (p : Fin 5000) (q : Fin 128) :
    k0_pay1 (F := Ideal) x (shapeCast S1x128 gamma shapeCasts_S128_S1x128) (shapeCast S1x128 beta shapeCasts_S128_S1x128)
        (shapeCast S1x128 mean shapeCasts_S128_S1x128) (shapeCast S1x128 var shapeCasts_S128_S1x128) w (ix2 p q)
      = ∑ k : Fin 128, normEntry (x (ix2 p k)) (gamma (ix1 k)) (beta (ix1 k)) (mean (ix1 k)) (var (ix1 k)) * w (ix2 k q) := by
  unfold k0_pay1
  refine (congrFun (rowOf_matmul_zero deviceDims none _ _ p) q).trans ?_
  refine Finset.sum_congr rfl fun k _ => ?_
  have e (v : S128.Idx → EReal) : broadcastTo S5000x128 (shapeCast S1x128 (shapeCast S1x128 v shapeCasts_S128_S1x128) shapeCasts_S1x128_S1x128) broadcasts_S1x128_S5000x128 (ix2 p k) = v (ix1 k) :=
    paramRow_apply v _ _ _ p k
  have ev : broadcastTo S5000x128 (rsqrt (addf (shapeCast S1x128 (shapeCast S1x128 var shapeCasts_S128_S1x128) shapeCasts_S1x128_S1x128) (broadcast S1x128 (Scalar.ofBits (F := Ideal) .f32 0x3727C5AC#32)))) broadcasts_S1x128_S5000x128 (ix2 p k)
      = Ideal.rsqrt (var (ix1 k) + eps) := by
    rw [broadcastTo_1b_ab_apply]
    show Ideal.rsqrt (shapeCast S1x128 (shapeCast S1x128 var shapeCasts_S128_S1x128) shapeCasts_S1x128_S1x128 (ix2 (0 : Fin 1) k) + eps) = _
    rw [shapeCast_self, shapeCast_a_1a_apply]
  show ((x (ix2 p k) - broadcastTo S5000x128 (shapeCast S1x128 (shapeCast S1x128 mean shapeCasts_S128_S1x128) shapeCasts_S1x128_S1x128) broadcasts_S1x128_S5000x128 (ix2 p k))
        * broadcastTo S5000x128 (rsqrt (addf (shapeCast S1x128 (shapeCast S1x128 var shapeCasts_S128_S1x128) shapeCasts_S1x128_S1x128) (broadcast S1x128 (Scalar.ofBits (F := Ideal) .f32 0x3727C5AC#32)))) broadcasts_S1x128_S5000x128 (ix2 p k)
        * broadcastTo S5000x128 (shapeCast S1x128 (shapeCast S1x128 gamma shapeCasts_S128_S1x128) shapeCasts_S1x128_S1x128) broadcasts_S1x128_S5000x128 (ix2 p k)
        + broadcastTo S5000x128 (shapeCast S1x128 (shapeCast S1x128 beta shapeCasts_S128_S1x128) shapeCasts_S1x128_S1x128) broadcasts_S1x128_S5000x128 (ix2 p k)) * w (ix2 k q) = _
  rw [e mean, ev, e gamma, e beta]
  rfl

/-- Entry `(p, q)` of the host's dense stage of whole arrays. -/
theorem host_apply (a : Cert.ReferenceIdeal.S50000x128.Idx → EReal) (gamma beta mean var : Cert.ReferenceIdeal.S128.Idx → EReal) (w : Cert.ReferenceIdeal.S128x128.Idx → EReal)
    (p : Fin 50000) (q : Fin 128) :
    Cert.Gcn.dense1 (F := Ideal) a gamma beta mean var w (ix2 p q)
      = ∑ k : Fin 128, normEntry (a (ix2 p k)) (gamma (ix1 k)) (beta (ix1 k)) (mean (ix1 k)) (var (ix1 k)) * w (ix2 k q) := by
  unfold Cert.Gcn.dense1
  refine (congrFun (rowOf_dotGeneral hostDims none _ _ p) q).trans ?_
  refine Finset.sum_congr rfl fun k _ => ?_
  have e (v : Cert.ReferenceIdeal.S128.Idx → EReal) : Cert.Gcn.downRows (F := Ideal) v (ix2 p k) = v (ix1 k) :=
    congrFun (rowOf_broadcastInDim_vec v _ _ p) k
  unfold Cert.Gcn.normalise
  show ((a (ix2 p k) - Cert.Gcn.downRows (F := Ideal) mean (ix2 p k))
        * Cert.Gcn.downRows (F := Ideal) (Host.rsqrt (addf var (broadcastInDim Cert.ReferenceIdeal.S128 ![] Cert.ReferenceIdeal.Gen.bcast_S_S128 (constant (F := Ideal) Cert.ReferenceIdeal.S_ .f32 0x3727C5AC#32)))) (ix2 p k)
        * Cert.Gcn.downRows (F := Ideal) gamma (ix2 p k) + Cert.Gcn.downRows (F := Ideal) beta (ix2 p k)) * w (ix2 k q) = _
  rw [e mean, e gamma, e beta, e]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row blocks follow the point, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The feature block at point `t` is rows `5000·t …` of the feature matrix. -/
theorem rows_apply (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_arg0 : S50000x128.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- Parameter window 1's block is its whole `[1, 128]` array at every point. -/
theorem param1_eq (c : Dev nD) (t : Fin cfg0.N) : (iblk0 V c 1 t : Vec Ideal S1x128 .f32) = V c main_v32 := by
  obtain ⟨-, -, e10, e11, e20, e21, e30, e31, e40, e41, -⟩ := idx_facts t
  funext y
  unfold iblk0
  rw [View.read_apply]
  show V c main_v32 _ = V c main_v32 _
  congr 1
  funext a
  apply Fin.ext
  match a with
  | ⟨0, _⟩ => show win0_1.index t 0 * 1 + 1 * (y 0).val = (y 0).val; rw [e10]; omega
  | ⟨1, _⟩ => show win0_1.index t 1 * 128 + 1 * (y 1).val = (y 1).val; rw [e11]; omega

/-- Parameter window 2's block is its whole `[1, 128]` array at every point. -/
theorem param2_eq (c : Dev nD) (t : Fin cfg0.N) : (iblk0 V c 2 t : Vec Ideal S1x128 .f32) = V c main_v33 := by
  obtain ⟨-, -, e10, e11, e20, e21, e30, e31, e40, e41, -⟩ := idx_facts t
  funext y
  unfold iblk0
  rw [View.read_apply]
  show V c main_v33 _ = V c main_v33 _
  congr 1
  funext a
  apply Fin.ext
  match a with
  | ⟨0, _⟩ => show win0_2.index t 0 * 1 + 1 * (y 0).val = (y 0).val; rw [e20]; omega
  | ⟨1, _⟩ => show win0_2.index t 1 * 128 + 1 * (y 1).val = (y 1).val; rw [e21]; omega

/-- Parameter window 3's block is its whole `[1, 128]` array at every point. -/
theorem param3_eq (c : Dev nD) (t : Fin cfg0.N) : (iblk0 V c 3 t : Vec Ideal S1x128 .f32) = V c main_v34 := by
  obtain ⟨-, -, e10, e11, e20, e21, e30, e31, e40, e41, -⟩ := idx_facts t
  funext y
  unfold iblk0
  rw [View.read_apply]
  show V c main_v34 _ = V c main_v34 _
  congr 1
  funext a
  apply Fin.ext
  match a with
  | ⟨0, _⟩ => show win0_3.index t 0 * 1 + 1 * (y 0).val = (y 0).val; rw [e30]; omega
  | ⟨1, _⟩ => show win0_3.index t 1 * 128 + 1 * (y 1).val = (y 1).val; rw [e31]; omega

/-- Parameter window 4's block is its whole `[1, 128]` array at every point. -/
theorem param4_eq (c : Dev nD) (t : Fin cfg0.N) : (iblk0 V c 4 t : Vec Ideal S1x128 .f32) = V c main_v35 := by
  obtain ⟨-, -, e10, e11, e20, e21, e30, e31, e40, e41, -⟩ := idx_facts t
  funext y
  unfold iblk0
  rw [View.read_apply]
  show V c main_v35 _ = V c main_v35 _
  congr 1
  funext a
  apply Fin.ext
  match a with
  | ⟨0, _⟩ => show win0_4.index t 0 * 1 + 1 * (y 0).val = (y 0).val; rw [e40]; omega
  | ⟨1, _⟩ => show win0_4.index t 1 * 128 + 1 * (y 1).val = (y 1).val; rw [e41]; omega

/-- The weight window's block is the whole weight matrix at every point. -/
theorem weights_eq (c : Dev nD) (t : Fin cfg0.N) : (iblk0 V c 5 t : Vec Ideal S128x128 .f32) = V c main_arg6 := by
  obtain ⟨-, -, -, -, -, -, -, -, -, -, e50, e51, -⟩ := idx_facts t
  funext y
  unfold iblk0
  rw [View.read_apply]
  show V c main_arg6 _ = V c main_arg6 _
  congr 1
  funext a
  apply Fin.ext
  match a with
  | ⟨0, _⟩ => show win0_5.index t 0 * 128 + 1 * (y 0).val = (y 0).val; rw [e50]; omega
  | ⟨1, _⟩ => show win0_5.index t 1 * 128 + 1 * (y 1).val = (y 1).val; rw [e51]; omega

section Final
variable (c : Dev nD) (gamma beta mean var : S128.Idx → EReal)
  (hgamma : V c main_v32 = shapeCast S1x128 gamma shapeCasts_S128_S1x128) (hbeta : V c main_v33 = shapeCast S1x128 beta shapeCasts_S128_S1x128)
  (hmean : V c main_v34 = shapeCast S1x128 mean shapeCasts_S128_S1x128) (hvar : V c main_v35 = shapeCast S1x128 var shapeCasts_S128_S1x128)

/-- The array the output ends at: the host's dense stage of the arrays the region finds. -/
abbrev target : S50000x128.Idx → EReal :=
  Cert.Gcn.dense1 (F := Ideal) (V c main_arg0) gamma beta mean var (V c main_arg6)

include hgamma hbeta hmean hvar in
/-- One entry of the block point `t` writes is the target's entry at the same row of the whole array. -/
theorem block_entry (t : Fin cfg0.N) (y : S5000x128.Idx) (i : S50000x128.Idx)
    (h0 : (i 0).val = 5000 * t.val + (y 0).val) (h1 : (i 1).val = (y 1).val) :
    k0_pay1 (F := Ideal) (iblk0 V c 0 t) (iblk0 V c 1 t) (iblk0 V c 2 t) (iblk0 V c 3 t) (iblk0 V c 4 t) (iblk0 V c 5 t) y
      = target V c gamma beta mean var i := by
  obtain ⟨p, q, rfl⟩ : ∃ (p : Fin 5000) (q : Fin 128), y = ix2 p q := ⟨y 0, y 1, eq_ix2 y⟩
  obtain ⟨p', q', rfl⟩ : ∃ (p' : Fin 50000) (q' : Fin 128), i = ix2 p' q' := ⟨i 0, i 1, eq_ix2 i⟩
  have hq : q' = q := Fin.ext h1
  subst hq
  rw [param1_eq V c t, param2_eq V c t, param3_eq V c t, param4_eq V c t, weights_eq V c t, hgamma, hbeta, hmean, hvar]
  refine (body_apply (iblk0 V c 0 t) gamma beta mean var (V c main_arg6) p q').trans ?_
  refine ((host_apply (V c main_arg0) gamma beta mean var (V c main_arg6) p' q').trans ?_).symm
  refine Finset.sum_congr rfl fun k _ => ?_
  rw [rows_apply V c t (ix2 p k) (ix2 p' k) h0 rfl]

include hgamma hbeta hmean hvar in
/-- What point `t` writes back is block `t` of the target. -/
theorem flushed_eq (t : Fin cfg0.N) :
    (dat0 V c).flushed 6 t = ((cfg0.win 6).blk t).view.read (Elt Ideal) (target V c gamma beta mean var) := by
  obtain ⟨-, -, -, -, -, -, -, -, -, -, -, -, e60, e61⟩ := idx_facts t
  show (cfg0.win 6).cut (grid0.coords t) ((dat0 V c).after 6 t) = _
  rw [after0_6]
  unfold out0_6
  rw [View.canon_unit_zero hz]
  simp only [View.ld_unit_zero (S := S5000x128) hz, View.ld_unit_zero (S := S1x128) hz, View.ld_unit_zero (S := S128x128) hz]
  funext y
  rw [View.read_apply]
  refine block_entry V c gamma beta mean var hgamma hbeta hmean hvar t y _ ?_ ?_
  · show _ = 5000 * t.val + (y 0).val
    show win0_6.index t 0 * 5000 + 1 * (y 0).val = _
    rw [e60]; omega
  · show win0_6.index t 1 * 128 + 1 * (y 1).val = (y 1).val
    rw [e61]; omega

/-- An index of the output array is in point `t`'s block iff each coordinate is in the block's range. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v36).slice (win0_6.rect t)).set ↔ _
  rw [View.set_slice_whole, Rect.mem_set_unit]
  exact Iff.rfl

/-- Row `r` of the output is in the block of point `r / 5000`: the ten blocks tile the array. -/
theorem covered (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, -, -, e60, e61⟩ := idx_facts t
  refine ⟨t, flush0_6 t, ?_⟩
  rw [mem_blk]
  intro a
  have ht : t.val = (i 0).val / 5000 := rfl
  match a with
  | ⟨0, _⟩ => show win0_6.index t 0 * 5000 ≤ (i 0).val ∧ (i 0).val < win0_6.index t 0 * 5000 + 5000; rw [e60, ht]; omega
  | ⟨1, _⟩ => show win0_6.index t 1 * 128 ≤ (i 1).val ∧ (i 1).val < win0_6.index t 1 * 128 + 128; rw [e61]; omega

include hgamma hbeta hmean hvar in
/-- THE OUTPUT ARRAY when the region ends: the host's dense stage of the arrays the region found. -/
theorem final : (dat0 V c).arrAt 6 cfg0.N = target V c gamma beta mean var :=
  (dat0 V c).arrAt_eq_of_cover 6 (target V c gamma beta mean var)
    (fun t _ => flushed_eq V c gamma beta mean var hgamma hbeta hmean hvar t) (covered)

end Final

end Cert.KernelIdeal.Stage1

end
-- ==== Proof.Stage2.lean ====
/-
  The second pipelined region: what its output array holds when the region ends.

  The region walks the 50000 rows in ten blocks of 5000. At block `t` the body reads rows `5000·t … 5000·t + 4999` of
  the feature matrix, the four `[1, 128]` parameter rows and the whole `[128, 2]` weight matrix, normalises the block
  column by column, rectifies it and multiplies it by the weights into a zero accumulator; the block is then written back
  to rows `5000·t …` of the output. A change of float format is the identity on the extended reals and a product
  into a zero accumulator is the plain sum over the contracted axis, so the written block is the same rows of the
  host's dense stage (`Cert.Gcn.dense2`) of the whole arrays; the ten blocks tile the output, so the output array ends
  at that dense stage.
-/
import proofs.«124366_j57750130262575_1_alg».proof.Proof.Gen.KernelIdeal.Frame
import proofs.«124366_j57750130262575_1_alg».proof.Proof.Gcn
import proofs.«124366_j57750130262575_1_alg».proof.Proof.DenseRows
import proofs.«124366_j57750130262575_1_alg».proof.Proof.LibRowLayers
import Idealize.ShloMosaic.Lib.Pipeline.Value
import Idealize.ShloMosaic.Lib.ValueLayout

set_option maxRecDepth 16384

noncomputable section

namespace Cert.KernelIdeal.Stage2

open Idealize.ShloMosaic Idealize.ShloMosaic.TcCoe Idealize.ShloMosaic.ValueIdx Idealize.SL.Sem
open Idealize.ShloMosaic.Pipeline (Dat)
open Cert.KernelIdeal Cert.KernelIdeal.Gen Cert.RowLayers Cert.DenseRows

/-! ## The two matrix products read entry by entry -/

/-- The device's product contracts the block's columns against the weights' rows. -/
theorem deviceDims : RowsTimesCols dot_S5000x128_S128x2_S5000x2_1_0_0_1_n_n where
  rank := rfl
  size := rfl
  lhs0 := fun j q => by
    unfold DotDims.lhsIdx
    rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
    rfl
  lhs1 := fun j q => dot_S5000x128_S128x2_S5000x2_1_0_0_1_n_n.lhsIdx_val_of_single rfl j q
  rhs0 := fun j q => dot_S5000x128_S128x2_S5000x2_1_0_0_1_n_n.rhsIdx_val_of_single rfl j q
  rhs1 := fun j q => by
    unfold DotDims.rhsIdx
    rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
    rfl

/-- So does the host's, over all 50000 rows. -/
theorem hostDims : RowsTimesCols Cert.ReferenceIdeal.dot_S50000x128_S128x2_S50000x2_1_0_0_1_n_n where
  rank := rfl
  size := rfl
  lhs0 := fun j q => by
    unfold DotDims.lhsIdx
    rw [dif_neg (show ¬(0 : Fin Cert.ReferenceIdeal.S50000x128.rank) ∈ Cert.ReferenceIdeal.dot_S50000x128_S128x2_S50000x2_1_0_0_1_n_n.lhsBatch by decide), dif_pos (show (0 : Fin Cert.ReferenceIdeal.S50000x128.rank) ∈ Cert.ReferenceIdeal.dot_S50000x128_S128x2_S50000x2_1_0_0_1_n_n.lhsNonContracting by decide)]
    rfl
  lhs1 := fun j q => Cert.ReferenceIdeal.dot_S50000x128_S128x2_S50000x2_1_0_0_1_n_n.lhsIdx_val_of_single rfl j q
  rhs0 := fun j q => Cert.ReferenceIdeal.dot_S50000x128_S128x2_S50000x2_1_0_0_1_n_n.rhsIdx_val_of_single rfl j q
  rhs1 := fun j q => by
    unfold DotDims.rhsIdx
    rw [dif_neg (show ¬(1 : Fin Cert.ReferenceIdeal.S128x2.rank) ∈ Cert.ReferenceIdeal.dot_S50000x128_S128x2_S50000x2_1_0_0_1_n_n.rhsBatch by decide), dif_pos (show (1 : Fin Cert.ReferenceIdeal.S128x2.rank) ∈ Cert.ReferenceIdeal.dot_S50000x128_S128x2_S50000x2_1_0_0_1_n_n.rhsNonContracting by decide)]
    rfl

/-- A `[1, 128]` parameter row that is a `[128]` vector given a unit leading axis, repeated down a block's rows, reads the
    vector at the column. -/
theorem paramRow_apply (v : S128.Idx → EReal) (hc : S128.ShapeCasts S1x128) (hs : S1x128.ShapeCasts S1x128) (hb : S1x128.Broadcasts S5000x128)
    (p : Fin 5000) (k : Fin 128) :
    broadcastTo S5000x128 (shapeCast S1x128 (shapeCast S1x128 v hc) hs) hb (ix2 p k) = v (ix1 k) := by
  rw [broadcastTo_1b_ab_apply, shapeCast_self, shapeCast_a_1a_apply]

/-- Entry `(p, q)` of what the body stores, from a block of rows, the four parameter vectors and the weights. -/
theorem body_apply (x : Vec Ideal S5000x128 .f32) (gamma beta mean var : S128.Idx → EReal) (w : Vec Ideal S128x2 .f32) (p : Fin 5000) (q : Fin 2) :
    k1_pay1 (F := Ideal) x (shapeCast S1x128 gamma shapeCasts_S128_S1x128) (shapeCast S1x128 beta shapeCasts_S128_S1x128)
        (shapeCast S1x128 mean shapeCasts_S128_S1x128) (shapeCast S1x128 var shapeCasts_S128_S1x128) w (ix2 p q)
      = ∑ k : Fin 128, reluNormEntry (x (ix2 p k)) (gamma (ix1 k)) (beta (ix1 k)) (mean (ix1 k)) (var (ix1 k)) * w (ix2 k q) := by
  unfold k1_pay1
  refine (congrFun (rowOf_matmul_zero deviceDims none _ _ p) q).trans ?_
  refine Finset.sum_congr rfl fun k _ => ?_
  have e (v : S128.Idx → EReal) : broadcastTo S5000x128 (shapeCast S1x128 (shapeCast S1x128 v shapeCasts_S128_S1x128) shapeCasts_S1x128_S1x128) broadcasts_S1x128_S5000x128 (ix2 p k) = v (ix1 k) :=
    paramRow_apply v _ _ _ p k
  have ev : broadcastTo S5000x128 (rsqrt (addf (shapeCast S1x128 (shapeCast S1x128 var shapeCasts_S128_S1x128) shapeCasts_S1x128_S1x128) (broadcast S1x128 (Scalar.ofBits (F := Ideal) .f32 0x3727C5AC#32)))) broadcasts_S1x128_S5000x128 (ix2 p k)
      = Ideal.rsqrt (var (ix1 k) + eps) := by
    rw [broadcastTo_1b_ab_apply]
    show Ideal.rsqrt (shapeCast S1x128 (shapeCast S1x128 var shapeCasts_S128_S1x128) shapeCasts_S1x128_S1x128 (ix2 (0 : Fin 1) k) + eps) = _
    rw [shapeCast_self, shapeCast_a_1a_apply]
  show (max ((shapeCast S5000x128 x shapeCasts_S5000x128_S5000x128 (ix2 p k) - broadcastTo S5000x128 (shapeCast S1x128 (shapeCast S1x128 mean shapeCasts_S128_S1x128) shapeCasts_S1x128_S1x128) broadcasts_S1x128_S5000x128 (ix2 p k))
        * broadcastTo S5000x128 (rsqrt (addf (shapeCast S1x128 (shapeCast S1x128 var shapeCasts_S128_S1x128) shapeCasts_S1x128_S1x128) (broadcast S1x128 (Scalar.ofBits (F := Ideal) .f32 0x3727C5AC#32)))) broadcasts_S1x128_S5000x128 (ix2 p k)
        * broadcastTo S5000x128 (shapeCast S1x128 (shapeCast S1x128 gamma shapeCasts_S128_S1x128) shapeCasts_S1x128_S1x128) broadcasts_S1x128_S5000x128 (ix2 p k)
        + broadcastTo S5000x128 (shapeCast S1x128 (shapeCast S1x128 beta shapeCasts_S128_S1x128) shapeCasts_S1x128_S1x128) broadcasts_S1x128_S5000x128 (ix2 p k))
        (Scalar.ofBits (F := Ideal) .f32 0x00000000#32)) * w (ix2 k q) = _
  rw [shapeCast_self]
  rw [e mean, ev, e gamma, e beta]
  rfl

/-- Entry `(p, q)` of the host's dense stage of whole arrays. -/
theorem host_apply (a : Cert.ReferenceIdeal.S50000x128.Idx → EReal) (gamma beta mean var : Cert.ReferenceIdeal.S128.Idx → EReal) (w : Cert.ReferenceIdeal.S128x2.Idx → EReal)
    (p : Fin 50000) (q : Fin 2) :
    Cert.Gcn.dense2 (F := Ideal) a gamma beta mean var w (ix2 p q)
      = ∑ k : Fin 128, reluNormEntry (a (ix2 p k)) (gamma (ix1 k)) (beta (ix1 k)) (mean (ix1 k)) (var (ix1 k)) * w (ix2 k q) := by
  unfold Cert.Gcn.dense2
  refine (congrFun (rowOf_dotGeneral hostDims none _ _ p) q).trans ?_
  refine Finset.sum_congr rfl fun k _ => ?_
  have e (v : Cert.ReferenceIdeal.S128.Idx → EReal) : Cert.Gcn.downRows (F := Ideal) v (ix2 p k) = v (ix1 k) :=
    congrFun (rowOf_broadcastInDim_vec v _ _ p) k
  unfold Cert.Gcn.normalise
  show (max ((a (ix2 p k) - Cert.Gcn.downRows (F := Ideal) mean (ix2 p k))
        * Cert.Gcn.downRows (F := Ideal) (Host.rsqrt (addf var (broadcastInDim Cert.ReferenceIdeal.S128 ![] Cert.ReferenceIdeal.Gen.bcast_S_S128 (constant (F := Ideal) Cert.ReferenceIdeal.S_ .f32 0x3727C5AC#32)))) (ix2 p k)
        * Cert.Gcn.downRows (F := Ideal) gamma (ix2 p k) + Cert.Gcn.downRows (F := Ideal) beta (ix2 p k))
        (Ideal.ofBits .f32 0x00000000#32)) * w (ix2 k q) = _
  rw [e mean, e gamma, e beta, e]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row blocks follow the point, every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The feature block at point `t` is rows `5000·t …` of the feature matrix. -/
theorem rows_apply (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c main_v52 : S50000x128.Idx → EReal) i := by
  obtain ⟨e0, e1, -⟩ := idx_facts t
  unfold iblk1
  rw [View.read_apply]
  show V c main_v52 _ = V c main_v52 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- Parameter window 1's block is its whole `[1, 128]` array at every point. -/
theorem param1_eq (c : Dev nD) (t : Fin cfg1.N) : (iblk1 V c 1 t : Vec Ideal S1x128 .f32) = V c main_v53 := by
  obtain ⟨-, -, e10, e11, e20, e21, e30, e31, e40, e41, -⟩ := idx_facts t
  funext y
  unfold iblk1
  rw [View.read_apply]
  show V c main_v53 _ = V c main_v53 _
  congr 1
  funext a
  apply Fin.ext
  match a with
  | ⟨0, _⟩ => show win1_1.index t 0 * 1 + 1 * (y 0).val = (y 0).val; rw [e10]; omega
  | ⟨1, _⟩ => show win1_1.index t 1 * 128 + 1 * (y 1).val = (y 1).val; rw [e11]; omega

/-- Parameter window 2's block is its whole `[1, 128]` array at every point. -/
theorem param2_eq (c : Dev nD) (t : Fin cfg1.N) : (iblk1 V c 2 t : Vec Ideal S1x128 .f32) = V c main_v54 := by
  obtain ⟨-, -, e10, e11, e20, e21, e30, e31, e40, e41, -⟩ := idx_facts t
  funext y
  unfold iblk1
  rw [View.read_apply]
  show V c main_v54 _ = V c main_v54 _
  congr 1
  funext a
  apply Fin.ext
  match a with
  | ⟨0, _⟩ => show win1_2.index t 0 * 1 + 1 * (y 0).val = (y 0).val; rw [e20]; omega
  | ⟨1, _⟩ => show win1_2.index t 1 * 128 + 1 * (y 1).val = (y 1).val; rw [e21]; omega

/-- Parameter window 3's block is its whole `[1, 128]` array at every point. -/
theorem param3_eq (c : Dev nD) (t : Fin cfg1.N) : (iblk1 V c 3 t : Vec Ideal S1x128 .f32) = V c main_v55 := by
  obtain ⟨-, -, e10, e11, e20, e21, e30, e31, e40, e41, -⟩ := idx_facts t
  funext y
  unfold iblk1
  rw [View.read_apply]
  show V c main_v55 _ = V c main_v55 _
  congr 1
  funext a
  apply Fin.ext
  match a with
  | ⟨0, _⟩ => show win1_3.index t 0 * 1 + 1 * (y 0).val = (y 0).val; rw [e30]; omega
  | ⟨1, _⟩ => show win1_3.index t 1 * 128 + 1 * (y 1).val = (y 1).val; rw [e31]; omega

/-- Parameter window 4's block is its whole `[1, 128]` array at every point. -/
theorem param4_eq (c : Dev nD) (t : Fin cfg1.N) : (iblk1 V c 4 t : Vec Ideal S1x128 .f32) = V c main_v56 := by
  obtain ⟨-, -, e10, e11, e20, e21, e30, e31, e40, e41, -⟩ := idx_facts t
  funext y
  unfold iblk1
  rw [View.read_apply]
  show V c main_v56 _ = V c main_v56 _
  congr 1
  funext a
  apply Fin.ext
  match a with
  | ⟨0, _⟩ => show win1_4.index t 0 * 1 + 1 * (y 0).val = (y 0).val; rw [e40]; omega
  | ⟨1, _⟩ => show win1_4.index t 1 * 128 + 1 * (y 1).val = (y 1).val; rw [e41]; omega

/-- The weight window's block is the whole weight matrix at every point. -/
theorem weights_eq (c : Dev nD) (t : Fin cfg1.N) : (iblk1 V c 5 t : Vec Ideal S128x2 .f32) = V c main_arg12 := by
  obtain ⟨-, -, -, -, -, -, -, -, -, -, e50, e51, -⟩ := idx_facts t
  funext y
  unfold iblk1
  rw [View.read_apply]
  show V c main_arg12 _ = V c main_arg12 _
  congr 1
  funext a
  apply Fin.ext
  match a with
  | ⟨0, _⟩ => show win1_5.index t 0 * 128 + 1 * (y 0).val = (y 0).val; rw [e50]; omega
  | ⟨1, _⟩ => show win1_5.index t 1 * 2 + 1 * (y 1).val = (y 1).val; rw [e51]; omega

section Final
variable (c : Dev nD) (gamma beta mean var : S128.Idx → EReal)
  (hgamma : V c main_v53 = shapeCast S1x128 gamma shapeCasts_S128_S1x128) (hbeta : V c main_v54 = shapeCast S1x128 beta shapeCasts_S128_S1x128)
  (hmean : V c main_v55 = shapeCast S1x128 mean shapeCasts_S128_S1x128) (hvar : V c main_v56 = shapeCast S1x128 var shapeCasts_S128_S1x128)

/-- The array the output ends at: the host's dense stage of the arrays the region finds. -/
abbrev target : S50000x2.Idx → EReal :=
  Cert.Gcn.dense2 (F := Ideal) (V c main_v52) gamma beta mean var (V c main_arg12)

include hgamma hbeta hmean hvar in
/-- One entry of the block point `t` writes is the target's entry at the same row of the whole array. -/
theorem block_entry (t : Fin cfg1.N) (y : S5000x2.Idx) (i : S50000x2.Idx)
    (h0 : (i 0).val = 5000 * t.val + (y 0).val) (h1 : (i 1).val = (y 1).val) :
    k1_pay1 (F := Ideal) (iblk1 V c 0 t) (iblk1 V c 1 t) (iblk1 V c 2 t) (iblk1 V c 3 t) (iblk1 V c 4 t) (iblk1 V c 5 t) y
      = target V c gamma beta mean var i := by
  obtain ⟨p, q, rfl⟩ : ∃ (p : Fin 5000) (q : Fin 2), y = ix2 p q := ⟨y 0, y 1, eq_ix2 y⟩
  obtain ⟨p', q', rfl⟩ : ∃ (p' : Fin 50000) (q' : Fin 2), i = ix2 p' q' := ⟨i 0, i 1, eq_ix2 i⟩
  have hq : q' = q := Fin.ext h1
  subst hq
  rw [param1_eq V c t, param2_eq V c t, param3_eq V c t, param4_eq V c t, weights_eq V c t, hgamma, hbeta, hmean, hvar]
  refine (body_apply (iblk1 V c 0 t) gamma beta mean var (V c main_arg12) p q').trans ?_
  refine ((host_apply (V c main_v52) gamma beta mean var (V c main_arg12) p' q').trans ?_).symm
  refine Finset.sum_congr rfl fun k _ => ?_
  rw [rows_apply V c t (ix2 p k) (ix2 p' k) h0 rfl]

include hgamma hbeta hmean hvar in
/-- What point `t` writes back is block `t` of the target. -/
theorem flushed_eq (t : Fin cfg1.N) :
    (dat1 V c).flushed 6 t = ((cfg1.win 6).blk t).view.read (Elt Ideal) (target V c gamma beta mean var) := by
  obtain ⟨-, -, -, -, -, -, -, -, -, -, -, -, e60, e61⟩ := idx_facts t
  show (cfg1.win 6).cut (grid1.coords t) ((dat1 V c).after 6 t) = _
  rw [after1_6]
  unfold out1_6
  rw [View.canon_unit_zero hz]
  simp only [View.ld_unit_zero (S := S5000x128) hz, View.ld_unit_zero (S := S1x128) hz, View.ld_unit_zero (S := S128x2) hz]
  funext y
  rw [View.read_apply]
  refine block_entry V c gamma beta mean var hgamma hbeta hmean hvar t y _ ?_ ?_
  · show _ = 5000 * t.val + (y 0).val
    show win1_6.index t 0 * 5000 + 1 * (y 0).val = _
    rw [e60]; omega
  · show win1_6.index t 1 * 2 + 1 * (y 1).val = (y 1).val
    rw [e61]; omega

/-- An index of the output array is in point `t`'s block iff each coordinate is in the block's range. -/
theorem mem_blk (t : Fin cfg1.N) (i : S50000x2.Idx) :
    i ∈ ((cfg1.win 6).blk t).view.set ↔ ∀ a : Fin 2, win1_6.index t a * S5000x2.size a ≤ (i a).val ∧ (i a).val < win1_6.index t a * S5000x2.size a + S5000x2.size a := by
  show i ∈ ((View.whole main_v57).slice (win1_6.rect t)).set ↔ _
  rw [View.set_slice_whole, Rect.mem_set_unit]
  exact Iff.rfl

/-- Row `r` of the output is in the block of point `r / 5000`: the ten blocks tile the array. -/
theorem covered (i : S50000x2.Idx) : ∃ t : Fin cfg1.N, (cfg1.win 6).flush t = true ∧ i ∈ ((cfg1.win 6).blk t).view.set := by
  have hi0 : (i 0).val < 50000 := (i 0).isLt
  have hi1 : (i 1).val < 2 := (i 1).isLt
  have hN : cfg1.N = 10 := N_1
  let t : Fin cfg1.N := ⟨(i 0).val / 5000, by rw [hN]; omega⟩
  obtain ⟨-, -, -, -, -, -, -, -, -, -, -, -, e60, e61⟩ := idx_facts t
  refine ⟨t, flush1_6 t, ?_⟩
  rw [mem_blk]
  intro a
  have ht : t.val = (i 0).val / 5000 := rfl
  match a with
  | ⟨0, _⟩ => show win1_6.index t 0 * 5000 ≤ (i 0).val ∧ (i 0).val < win1_6.index t 0 * 5000 + 5000; rw [e60, ht]; omega
  | ⟨1, _⟩ => show win1_6.index t 1 * 2 ≤ (i 1).val ∧ (i 1).val < win1_6.index t 1 * 2 + 2; rw [e61]; omega

include hgamma hbeta hmean hvar in
/-- THE OUTPUT ARRAY when the region ends: the host's dense stage of the arrays the region found. -/
theorem final : (dat1 V c).arrAt 6 cfg1.N = target V c gamma beta mean var :=
  (dat1 V c).arrAt_eq_of_cover 6 (target V c gamma beta mean var)
    (fun t _ => flushed_eq V c gamma beta mean var hgamma hbeta hmean hvar t) (covered)

end Final

end Cert.KernelIdeal.Stage2

end
-- ==== Proof.KernelValue.lean ====
/-
  The kernel program's result buffer ends at the network of its arguments.

  The fold through the program's segments is followed from the launch to the return: the host stretch before the
  first region leaves the edge ends, the edge weights and the parameter rows; the first region leaves its output at
  the first dense stage of the arrays it finds; the stretch between the regions aggregates that output and adds the
  bias; the second region leaves its output at the second dense stage of the aggregate; the last stretch aggregates
  again. Every buffer a segment does not write is carried through it unchanged, so the stages compose to
  `Cert.Gcn.forward` of the fourteen argument arrays as launched.
-/
import proofs.«124366_j57750130262575_1_alg».proof.Proof.KernelRun
import proofs.«124366_j57750130262575_1_alg».proof.Proof.KernelHost
import proofs.«124366_j57750130262575_1_alg».proof.Proof.Stage1
import proofs.«124366_j57750130262575_1_alg».proof.Proof.Stage2

set_option maxRecDepth 16384

noncomputable section

namespace Cert.KernelIdeal.Network

open Cert.KernelIdeal Cert.KernelIdeal.Gen Cert.KernelIdeal.Stretches
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The network of the fourteen argument arrays as launched. -/
def result : Buf (Elt Ideal) ((c : Thread nD τ).loc main_v73) :=
  Cert.Gcn.forward (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-! ## At the first region's entry -/

theorem at3_sources : W3 m ρ c (Proc.devRef .tc main_v3) = Cert.Gcn.sources (F := Ideal) (m ((c : Thread nD τ).loc main_arg1)) := entry1_sources (W0 m ρ c)
theorem at3_targets : W3 m ρ c (Proc.devRef .tc main_v6) = Cert.Gcn.targets (F := Ideal) (m ((c : Thread nD τ).loc main_arg1)) := entry1_targets (W0 m ρ c)
theorem at3_weights : W3 m ρ c (Proc.devRef .tc main_v31) = Cert.Gcn.edgeWeight (F := Ideal) (m ((c : Thread nD τ).loc main_arg1)) := entry1_weights (W0 m ρ c)
theorem at3_arg0 : W3 m ρ c (Proc.devRef .tc main_arg0) = (m ((c : Thread nD τ).loc main_arg0)) := entry1_main_arg0 (W0 m ρ c)
theorem at3_arg6 : W3 m ρ c (Proc.devRef .tc main_arg6) = (m ((c : Thread nD τ).loc main_arg6)) := entry1_main_arg6 (W0 m ρ c)
theorem at3_arg7 : W3 m ρ c (Proc.devRef .tc main_arg7) = (m ((c : Thread nD τ).loc main_arg7)) := entry1_main_arg7 (W0 m ρ c)
theorem at3_arg8 : W3 m ρ c (Proc.devRef .tc main_arg8) = (m ((c : Thread nD τ).loc main_arg8)) := entry1_main_arg8 (W0 m ρ c)
theorem at3_arg9 : W3 m ρ c (Proc.devRef .tc main_arg9) = (m ((c : Thread nD τ).loc main_arg9)) := entry1_main_arg9 (W0 m ρ c)
theorem at3_arg10 : W3 m ρ c (Proc.devRef .tc main_arg10) = (m ((c : Thread nD τ).loc main_arg10)) := entry1_main_arg10 (W0 m ρ c)
theorem at3_arg11 : W3 m ρ c (Proc.devRef .tc main_arg11) = (m ((c : Thread nD τ).loc main_arg11)) := entry1_main_arg11 (W0 m ρ c)
theorem at3_arg12 : W3 m ρ c (Proc.devRef .tc main_arg12) = (m ((c : Thread nD τ).loc main_arg12)) := entry1_main_arg12 (W0 m ρ c)
theorem at3_arg13 : W3 m ρ c (Proc.devRef .tc main_arg13) = (m ((c : Thread nD τ).loc main_arg13)) := entry1_main_arg13 (W0 m ρ c)

/-! ## At the first region's exit -/

theorem at4_sources : W4 m ρ c (Proc.devRef .tc main_v3) = Cert.Gcn.sources (F := Ideal) (m ((c : Thread nD τ).loc main_arg1)) := (W4_of_ne m ρ c main_v3 (by decide)).trans (at3_sources m ρ c)
theorem at4_targets : W4 m ρ c (Proc.devRef .tc main_v6) = Cert.Gcn.targets (F := Ideal) (m ((c : Thread nD τ).loc main_arg1)) := (W4_of_ne m ρ c main_v6 (by decide)).trans (at3_targets m ρ c)
theorem at4_weights : W4 m ρ c (Proc.devRef .tc main_v31) = Cert.Gcn.edgeWeight (F := Ideal) (m ((c : Thread nD τ).loc main_arg1)) := (W4_of_ne m ρ c main_v31 (by decide)).trans (at3_weights m ρ c)
theorem at4_arg7 : W4 m ρ c (Proc.devRef .tc main_arg7) = (m ((c : Thread nD τ).loc main_arg7)) := (W4_of_ne m ρ c main_arg7 (by decide)).trans (at3_arg7 m ρ c)
theorem at4_arg8 : W4 m ρ c (Proc.devRef .tc main_arg8) = (m ((c : Thread nD τ).loc main_arg8)) := (W4_of_ne m ρ c main_arg8 (by decide)).trans (at3_arg8 m ρ c)
theorem at4_arg9 : W4 m ρ c (Proc.devRef .tc main_arg9) = (m ((c : Thread nD τ).loc main_arg9)) := (W4_of_ne m ρ c main_arg9 (by decide)).trans (at3_arg9 m ρ c)
theorem at4_arg10 : W4 m ρ c (Proc.devRef .tc main_arg10) = (m ((c : Thread nD τ).loc main_arg10)) := (W4_of_ne m ρ c main_arg10 (by decide)).trans (at3_arg10 m ρ c)
theorem at4_arg11 : W4 m ρ c (Proc.devRef .tc main_arg11) = (m ((c : Thread nD τ).loc main_arg11)) := (W4_of_ne m ρ c main_arg11 (by decide)).trans (at3_arg11 m ρ c)
theorem at4_arg12 : W4 m ρ c (Proc.devRef .tc main_arg12) = (m ((c : Thread nD τ).loc main_arg12)) := (W4_of_ne m ρ c main_arg12 (by decide)).trans (at3_arg12 m ρ c)
theorem at4_arg13 : W4 m ρ c (Proc.devRef .tc main_arg13) = (m ((c : Thread nD τ).loc main_arg13)) := (W4_of_ne m ρ c main_arg13 (by decide)).trans (at3_arg13 m ρ c)

/-- The first region's output: the first dense stage of the features, the first parameter vectors and the first weights. -/
theorem at4_dense : W4 m ρ c (Proc.devRef .tc main_v36)
    = Cert.Gcn.dense1 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 6).trans ?_
  refine (Stage1.final (V3 m ρ) c (m ((c : Thread nD τ).loc main_arg2)) (m ((c : Thread nD τ).loc main_arg3)) (m ((c : Thread nD τ).loc main_arg4)) (m ((c : Thread nD τ).loc main_arg5))
    (entry1_v32 (W0 m ρ c)) (entry1_v33 (W0 m ρ c)) (entry1_v34 (W0 m ρ c)) (entry1_v35 (W0 m ρ c))).trans ?_
  show Cert.Gcn.dense1 (F := Ideal) (W3 m ρ c (Proc.devRef .tc main_arg0)) _ _ _ _ (W3 m ρ c (Proc.devRef .tc main_arg6)) = _
  rw [at3_arg0, at3_arg6]

/-! ## At the second region's entry -/

theorem at5_sources : W5 m ρ c (Proc.devRef .tc main_v3) = Cert.Gcn.sources (F := Ideal) (m ((c : Thread nD τ).loc main_arg1)) := (mid_main_v3 (W4 m ρ c)).trans (at4_sources m ρ c)
theorem at5_targets : W5 m ρ c (Proc.devRef .tc main_v6) = Cert.Gcn.targets (F := Ideal) (m ((c : Thread nD τ).loc main_arg1)) := (mid_main_v6 (W4 m ρ c)).trans (at4_targets m ρ c)
theorem at5_weights : W5 m ρ c (Proc.devRef .tc main_v31) = Cert.Gcn.edgeWeight (F := Ideal) (m ((c : Thread nD τ).loc main_arg1)) := (mid_main_v31 (W4 m ρ c)).trans (at4_weights m ρ c)
theorem at5_arg12 : W5 m ρ c (Proc.devRef .tc main_arg12) = (m ((c : Thread nD τ).loc main_arg12)) := (mid_main_arg12 (W4 m ρ c)).trans (at4_arg12 m ρ c)
theorem at5_arg13 : W5 m ρ c (Proc.devRef .tc main_arg13) = (m ((c : Thread nD τ).loc main_arg13)) := (mid_main_arg13 (W4 m ρ c)).trans (at4_arg13 m ρ c)

/-- The first aggregate: of the first dense stage, with the first bias. -/
theorem at5_aggregate : W5 m ρ c (Proc.devRef .tc main_v52)
    = Cert.Gcn.aggregate128 (F := Ideal) (Cert.Gcn.dense1 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg7)) := by
  refine (mid_aggregate (W4 m ρ c) (m ((c : Thread nD τ).loc main_arg1)) (at4_sources m ρ c) (at4_targets m ρ c) (at4_weights m ρ c)).trans ?_
  rw [at4_dense, at4_arg7]

theorem at5_v53 : W5 m ρ c (Proc.devRef .tc main_v53) = shapeCast S1x128 (m ((c : Thread nD τ).loc main_arg8)) shapeCasts_S128_S1x128 := by
  refine (mid_v53 (W4 m ρ c)).trans ?_
  rw [at4_arg8]
theorem at5_v54 : W5 m ρ c (Proc.devRef .tc main_v54) = shapeCast S1x128 (m ((c : Thread nD τ).loc main_arg9)) shapeCasts_S128_S1x128 := by
  refine (mid_v54 (W4 m ρ c)).trans ?_
  rw [at4_arg9]
theorem at5_v55 : W5 m ρ c (Proc.devRef .tc main_v55) = shapeCast S1x128 (m ((c : Thread nD τ).loc main_arg10)) shapeCasts_S128_S1x128 := by
  refine (mid_v55 (W4 m ρ c)).trans ?_
  rw [at4_arg10]
theorem at5_v56 : W5 m ρ c (Proc.devRef .tc main_v56) = shapeCast S1x128 (m ((c : Thread nD τ).loc main_arg11)) shapeCasts_S128_S1x128 := by
  refine (mid_v56 (W4 m ρ c)).trans ?_
  rw [at4_arg11]

/-! ## At the second region's exit -/

theorem at6_sources : W6 m ρ c (Proc.devRef .tc main_v3) = Cert.Gcn.sources (F := Ideal) (m ((c : Thread nD τ).loc main_arg1)) := (W6_of_ne m ρ c main_v3 (by decide)).trans (at5_sources m ρ c)
theorem at6_targets : W6 m ρ c (Proc.devRef .tc main_v6) = Cert.Gcn.targets (F := Ideal) (m ((c : Thread nD τ).loc main_arg1)) := (W6_of_ne m ρ c main_v6 (by decide)).trans (at5_targets m ρ c)
theorem at6_weights : W6 m ρ c (Proc.devRef .tc main_v31) = Cert.Gcn.edgeWeight (F := Ideal) (m ((c : Thread nD τ).loc main_arg1)) := (W6_of_ne m ρ c main_v31 (by decide)).trans (at5_weights m ρ c)
theorem at6_arg13 : W6 m ρ c (Proc.devRef .tc main_arg13) = (m ((c : Thread nD τ).loc main_arg13)) := (W6_of_ne m ρ c main_arg13 (by decide)).trans (at5_arg13 m ρ c)

/-- The second region's output: the second dense stage of the first aggregate. -/
theorem at6_dense : W6 m ρ c (Proc.devRef .tc main_v57)
    = Cert.Gcn.dense2 (F := Ideal) (Cert.Gcn.aggregate128 (F := Ideal) (Cert.Gcn.dense1 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg7)))
        (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 6).trans ?_
  refine (Stage2.final (V5 m ρ) c (m ((c : Thread nD τ).loc main_arg8)) (m ((c : Thread nD τ).loc main_arg9)) (m ((c : Thread nD τ).loc main_arg10)) (m ((c : Thread nD τ).loc main_arg11))
    (at5_v53 m ρ c) (at5_v54 m ρ c) (at5_v55 m ρ c) (at5_v56 m ρ c)).trans ?_
  show Cert.Gcn.dense2 (F := Ideal) (W5 m ρ c (Proc.devRef .tc main_v52)) _ _ _ _ (W5 m ρ c (Proc.devRef .tc main_arg12)) = _
  rw [at5_aggregate, at5_arg12]

/-! ## At the return -/

/-- The result buffer's contents at the end of the fold: the network of the arguments. -/
theorem at7_result : W7 m ρ c (Proc.devRef .tc main_v73) = result m c := by
  refine (tail_aggregate (W6 m ρ c) (m ((c : Thread nD τ).loc main_arg1)) (at6_sources m ρ c) (at6_targets m ρ c) (at6_weights m ρ c)).trans ?_
  rw [at6_dense, at6_arg13]
  rfl

/-- THE RUN, READ: the kernel program terminates without a fault with its result at the network of the arguments and
    the arguments unchanged. -/
theorem run : θ_run defs (onTc (τ := τ) (main (F := Ideal))) ⟨m, fun _ => 0, ρ⟩ (fun r => ∀ c : Dev nD,
      r.2.mem ((c : Thread nD τ).loc main_v73) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  (θ_run defs _ _).mono (fun r h c => ⟨(h c).1.trans (at7_result m ρ c), (h c).2⟩) (Cert.KernelIdeal.Fold.run m ρ)

end Cert.KernelIdeal.Network

end
-- ==== Proof.lean ====
/-
  A two-layer graph convolution on 50000 nodes and 1600000 edges: the kernel program against its reference, over the
  extended reals.

  Both programs compute, from node features `x`, an edge list and the parameters of two layers,
    `out = A · (relu (norm₁ (A · (norm₀ x · W₁) + b₁)) · W₂) + b₂`,
  where `normᵢ` is a column-wise normalisation with fixed statistics, `(a - μ) · (v + ε)^(-1/2) · γ + β`, and `A` is the
  aggregation over the edges and one self-loop per node, each edge weighted by the inverse square roots of the degrees
  of its two ends. The reference is one line of array operations. The kernel program performs the two
  "normalise, (rectify,) multiply" stages in two pipelined regions that walk the rows in ten blocks of 5000, with a
  narrower float format in front of a product into a zero accumulator, and performs the edge arithmetic with the same
  array operations as the reference, once instead of twice. Over the extended reals a change of float format is the
  identity and a product into a zero accumulator is the plain sum over the contracted axis, so each region's output
  array is the reference's dense stage of the arrays the region reads, and both results are one function of the
  arguments (`Cert.Gcn.forward`). No law of arithmetic beyond that is used, so finiteness of the inputs is never needed.

  The three frames: the two kernel programs' are the generated frame certificates; the reference's is its run with the
  result forgotten. The idealisation rewrote no operation, so `preserves` is `True`.
-/
import proofs.«124366_j57750130262575_1_alg».proof.Defs
import proofs.«124366_j57750130262575_1_alg».proof.Proof.Gen.Kernel
import proofs.«124366_j57750130262575_1_alg».proof.Proof.Gen.Kernel.Skeleton
import proofs.«124366_j57750130262575_1_alg».proof.Proof.Gen.Kernel.Launch
import proofs.«124366_j57750130262575_1_alg».proof.Proof.Gen.Kernel.Points
import proofs.«124366_j57750130262575_1_alg».proof.Proof.Gen.Kernel.Frame
import proofs.«124366_j57750130262575_1_alg».proof.Proof.Gen.KernelIdeal
import proofs.«124366_j57750130262575_1_alg».proof.Proof.Gen.KernelIdeal.Skeleton
import proofs.«124366_j57750130262575_1_alg».proof.Proof.Gen.KernelIdeal.Launch
import proofs.«124366_j57750130262575_1_alg».proof.Proof.Gen.KernelIdeal.Points
import proofs.«124366_j57750130262575_1_alg».proof.Proof.Gen.KernelIdeal.Frame
import proofs.«124366_j57750130262575_1_alg».proof.Proof.Gen.ReferenceIdeal
import proofs.«124366_j57750130262575_1_alg».proof.Proof.Gen.Pre_finite_inputs
import proofs.«124366_j57750130262575_1_alg».proof.Proof.RefRun
import proofs.«124366_j57750130262575_1_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Line.run (F := Ideal) m ρ)

/-- From memories that agree on the arguments both programs end with their results at the network of those
    arguments: one function. -/
theorem algebraic : Cert.algebraic_KernelIdeal_ReferenceIdeal := by
  intro m ρ m' ρ' _ hagree
  refine ⟨fun c => Cert.KernelIdeal.Network.result m c, Cert.KernelIdeal.Network.run m ρ, ?_⟩
  refine (θ_run Cert.ReferenceIdeal.defs _ _).mono (fun _ h c => ⟨(h c).1.trans ?_, (h c).2⟩)
    (Cert.ReferenceIdeal.Line.run (F := Ideal) m' ρ')
  obtain ⟨h0, h1, h2, h3, h4, h5, h6, h7, h8, h9, h10, h11, h12, h13⟩ := hagree c
  unfold Cert.ReferenceIdeal.Line.result Cert.KernelIdeal.Network.result
  rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
